-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x128 : S_.BroadcastsInDim S800000x128 (![] : Fin 0 → Fin S800000x128.rank)
  reducesTo_S800000x128_S_d0_1 : S800000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S800000x128 .f32) (main_arg3 : FVec F S128x128 .f32) (main_arg4 : FVec F S128 .f32) (main_arg5 : FVec F S128x128 .f32) (main_arg6 : FVec F S128 .f32) (main_arg7 : FVec F S128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x128 .f32 := Host.absf main_arg2
  let main_cst_0 : FVec F S_ .f32 := constant S_ .f32 0x7F800000#32
  let main_v5 : FVec F S800000x128 .f32 := broadcastInDim S800000x128 ![] bcast_S_S800000x128 main_cst_0
  let main_v6 : IVec S800000x128 1 := cmpf .olt main_v4 main_v5
  let main_c_1 : IVec S_ 1 := constantI S_ 1 1#1
  let main_v7 : IVec S_ 1 := (fun x v => Host.reduce IntOp.andi x v reducesTo_S800000x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S10x1x128 : Shape := ⟨3, ![10, 1, 128]⟩
abbrev S5000x128 : Shape := ⟨2, ![5000, 128]⟩
abbrev S1x1x128 : Shape := ⟨3, ![1, 1, 128]⟩
abbrev S1x128 : Shape := ⟨2, ![1, 128]⟩

abbrev nBuf : Space → Nat
  | .hbm => 55
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S128x128, .bf16⟩
  | .hbm, ⟨31, _⟩ => ⟨S128x128, .bf16⟩
  | .hbm, ⟨32, _⟩ => ⟨S50000x128, .f32⟩
  | .hbm, ⟨33, _⟩ => ⟨S10x1x128, .f32⟩
  | .hbm, ⟨34, _⟩ => ⟨S10x1x128, .f32⟩
  | .hbm, ⟨35, _⟩ => ⟨S_, .f32⟩
  | .hbm, ⟨36, _⟩ => ⟨S128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S128, .f32⟩
  | .hbm, ⟨46, _⟩ => ⟨S128, .f32⟩
  | .hbm, ⟨47, _⟩ => ⟨S_, .f32⟩
  | .hbm, ⟨48, _⟩ => ⟨S128, .f32⟩
  | .hbm, ⟨49, _⟩ => ⟨S128, .f32⟩
  | .hbm, ⟨50, _⟩ => ⟨S128, .f32⟩
  | .hbm, ⟨51, _⟩ => ⟨S128, .f32⟩
  | .hbm, ⟨52, _⟩ => ⟨S128, .f32⟩
  | .hbm, ⟨53, _⟩ => ⟨S128, .f32⟩
  | .hbm, ⟨54, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128, .f32⟩
  | .local _ .vmem, ⟨6, _⟩ => ⟨S128x128, .bf16⟩
  | .local _ .vmem, ⟨7, _⟩ => ⟨S128, .f32⟩
  | .local _ .vmem, ⟨8, _⟩ => ⟨S5000x128, .f32⟩
  | .local _ .vmem, ⟨9, _⟩ => ⟨S5000x128, .f32⟩
  | .local _ .vmem, ⟨10, _⟩ => ⟨S1x1x128, .f32⟩
  | .local _ .vmem, ⟨11, _⟩ => ⟨S1x1x128, .f32⟩
  | .local _ .vmem, ⟨12, _⟩ => ⟨S1x1x128, .f32⟩
  | .local _ .vmem, ⟨13, _⟩ => ⟨S1x1x128, .f32⟩
  | .local _ .vmem, ⟨14, _⟩ => ⟨S5000x128, .f32⟩
  | .local _ .vmem, ⟨15, _⟩ => ⟨S5000x128, .f32⟩
  | .local _ .vmem, ⟨16, _⟩ => ⟨S128, .f32⟩
  | .local _ .vmem, ⟨17, _⟩ => ⟨S128, .f32⟩
  | .local _ .vmem, ⟨18, _⟩ => ⟨S5000x128, .f32⟩
  | .local _ .vmem, ⟨19, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18_0 : Ref sig .tc := ⟨.hbm, 32, rfl⟩
abbrev main_v18_1 : Ref sig .tc := ⟨.hbm, 33, rfl⟩
abbrev main_v18_2 : Ref sig .tc := ⟨.hbm, 34, rfl⟩
abbrev main_cst_1 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_cst_3 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg3_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem3_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  reduces_S5000x128_S128 : S5000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  reducesTo_S10x1x128_S128_d0_1 : S10x1x128.ReducesTo [0, 1] S128
  h_S_ : 0 < S_.numel
  bcast_S_S128 : S_.BroadcastsInDim S128 (![] : Fin 0 → Fin S128.rank)
  shapeCasts_S128_S128 : S128.ShapeCasts S128
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x128.size a ≤ S10x1x128.size a
  hwx0_7 : ∀ i : grid0.Coords, EltTy.bits .f32 = 32 ∨ (Rect.block (s := S10x1x128) S1x1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S10x1x128.size a
  hwx0_8 : ∀ i : grid0.Coords, EltTy.bits .f32 = 32 ∨ (Rect.block (s := S10x1x128) S1x1x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S5000x128.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S1x1x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v18_2) S1x1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v18_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x128 : Shape := ⟨2, ![800000, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x128 : Shape := ⟨2, ![1, 128]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S800000x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x128, .f32⟩
  | .hbm, ⟨22, _⟩ => ⟨S800000x128, .f32⟩
  | .hbm, ⟨23, _⟩ => ⟨S_, .f32⟩
  | .hbm, ⟨24, _⟩ => ⟨S800000x128, .f32⟩
  | .hbm, ⟨25, _⟩ => ⟨S800000x128, .f32⟩
  | .hbm, ⟨26, _⟩ => ⟨S_, .f32⟩
  | .hbm, ⟨27, _⟩ => ⟨S50000x128, .f32⟩
  | .hbm, ⟨28, _⟩ => ⟨S800000x1, .i32⟩
  | .hbm, ⟨29, _⟩ => ⟨S50000x128, .f32⟩
  | .hbm, ⟨30, _⟩ => ⟨S50000x128, .f32⟩
  | .hbm, ⟨31, _⟩ => ⟨S50000x128, .f32⟩
  | .hbm, ⟨32, _⟩ => ⟨S1x128, .f32⟩
  | .hbm, ⟨33, _⟩ => ⟨S50000x128, .f32⟩
  | .hbm, ⟨34, _⟩ => ⟨S50000x128, .f32⟩
  | .hbm, ⟨35, _⟩ => ⟨S_, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S1x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S128, .f32⟩
  | .hbm, ⟨45, _⟩ => ⟨S_, .f32⟩
  | .hbm, ⟨46, _⟩ => ⟨S128, .f32⟩
  | .hbm, ⟨47, _⟩ => ⟨S128, .f32⟩
  | .hbm, ⟨48, _⟩ => ⟨S_, .i32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S50000x128, .f32⟩
  | .hbm, ⟨56, _⟩ => ⟨S50000x128, .f32⟩
  | .hbm, ⟨57, _⟩ => ⟨S50000x128, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S128, .f32⟩
  | .hbm, ⟨63, _⟩ => ⟨S128, .f32⟩
  | .hbm, ⟨64, _⟩ => ⟨S128, .f32⟩
  | .hbm, ⟨65, _⟩ => ⟨S_, .f32⟩
  | .hbm, ⟨66, _⟩ => ⟨S_, .i1⟩
  | .hbm, ⟨67, _⟩ => ⟨S_, .f32⟩
  | .hbm, ⟨68, _⟩ => ⟨S_, .f32⟩
  | .hbm, ⟨69, _⟩ => ⟨S128, .f32⟩
  | .hbm, ⟨70, _⟩ => ⟨S128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S_, .f32⟩
  | .hbm, ⟨75, _⟩ => ⟨S128, .f32⟩
  | .hbm, ⟨76, _⟩ => ⟨S128, .f32⟩
  | .hbm, ⟨77, _⟩ => ⟨S128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S1x128, .f32⟩
  | .hbm, ⟨82, _⟩ => ⟨S50000x128, .f32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_call0_cst : Ref sig .tc := ⟨.hbm, 23, rfl⟩
abbrev main_call0_v0 : Ref sig .tc := ⟨.hbm, 24, rfl⟩
abbrev main_v12 : Ref sig .tc := ⟨.hbm, 25, rfl⟩
abbrev main_cst : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call1_cst : Ref sig .tc := ⟨.hbm, 35, rfl⟩
abbrev main_call1_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_1 : Ref sig .tc := ⟨.hbm, 43, rfl⟩
abbrev main_v27 : Ref sig .tc := ⟨.hbm, 44, rfl⟩
abbrev main_cst_2 : Ref sig .tc := ⟨.hbm, 45, rfl⟩
abbrev main_v28 : Ref sig .tc := ⟨.hbm, 46, rfl⟩
abbrev main_v29 : Ref sig .tc := ⟨.hbm, 47, rfl⟩
abbrev main_c_3 : Ref sig .tc := ⟨.hbm, 48, rfl⟩
abbrev main_call2_cst : Ref sig .tc := ⟨.hbm, 49, rfl⟩
abbrev main_call2_v0 : Ref sig .tc := ⟨.hbm, 50, rfl⟩
abbrev main_call2_v1 : Ref sig .tc := ⟨.hbm, 51, rfl⟩
abbrev main_call2_cst_0 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_cst_1 : Ref sig .tc := ⟨.hbm, 59, rfl⟩
abbrev main_call2_v8 : Ref sig .tc := ⟨.hbm, 60, rfl⟩
abbrev main_call2_cst_2 : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_cst_3 : Ref sig .tc := ⟨.hbm, 65, rfl⟩
abbrev main_call2_v12 : Ref sig .tc := ⟨.hbm, 66, rfl⟩
abbrev main_call2_cst_4 : Ref sig .tc := ⟨.hbm, 67, rfl⟩
abbrev main_call2_call0_v0 : Ref sig .tc := ⟨.hbm, 68, rfl⟩
abbrev main_call2_call0_v1 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_4 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_v45 : Ref sig .tc := ⟨.hbm, 86, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x128 : S_.BroadcastsInDim S800000x128 (![] : Fin 0 → Fin S800000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.LibBatchStats.lean ====
/-
  Batch statistics over the extended reals.

  A batch-normalisation layer needs the mean and the (biased) variance of a finite family of numbers. Two
  spellings of the variance occur: the centred one, the mean of the squared deviations from the mean, and the
  one-pass one, the mean of the squares less the square of the mean, clamped below at zero. On real numbers the two
  are the same number, and the centred one is non-negative, so the clamp does nothing. The lemmas here say so over
  the reals, and carry the statement to the extended reals for families all of whose members are real, where a sum, a
  quotient by a non-zero real, a product and a difference of reals are again the coercions of the real results.
-/
import Idealize.ShloMosaic.PureOps.Ideal

noncomputable section

namespace Cert.Lib.BatchStats

open Idealize.ShloMosaic

variable {ι : Type*}

/-- The coercion of the reals into the extended reals commutes with a finite sum. -/
theorem coe_sum (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- The quotient of two reals, the divisor not zero, on the extended reals is the real quotient. -/
theorem div_coe_coe (a b : ℝ) (hb : b ≠ 0) : Ideal.div (a : EReal) (b : EReal) = ((a / b : ℝ) : EReal) := by
  rw [Ideal.div_coe hb, ← EReal.coe_mul, mul_one_div]

/-- The sum of the squared deviations from a number mu, expanded: the sum of the squares, less twice mu times the
    sum, plus the count times mu squared. -/
theorem sum_sq_dev (s : Finset ι) (x : ι → ℝ) (μ : ℝ) :
    ∑ i ∈ s, (x i - μ) * (x i - μ) = ∑ i ∈ s, x i * x i - 2 * μ * ∑ i ∈ s, x i + (s.card : ℝ) * (μ * μ) := by
  have h : ∀ i ∈ s, (x i - μ) * (x i - μ) = x i * x i - 2 * μ * x i + μ * μ := fun i _ => by ring
  rw [Finset.sum_congr rfl h, Finset.sum_add_distrib, Finset.sum_sub_distrib, ← Finset.mul_sum, Finset.sum_const,
    nsmul_eq_mul]

/-- ONE-PASS VARIANCE IS THE CENTRED VARIANCE. For n real numbers (n not zero) the mean of the squares less the
    square of the mean is the mean of the squared deviations from the mean. -/
theorem var_onepass_eq_centred (s : Finset ι) (x : ι → ℝ) (n : ℝ) (hn : (s.card : ℝ) = n) (h0 : n ≠ 0) :
    (∑ i ∈ s, x i * x i) / n - (∑ i ∈ s, x i) / n * ((∑ i ∈ s, x i) / n)
      = (∑ i ∈ s, (x i - (∑ j ∈ s, x j) / n) * (x i - (∑ j ∈ s, x j) / n)) / n := by
  rw [sum_sq_dev, hn]
  field_simp
  ring

/-- The centred variance of real numbers is not negative (the divisor positive). -/
theorem centred_var_nonneg (s : Finset ι) (x : ι → ℝ) (μ n : ℝ) (hn : 0 < n) :
    0 ≤ (∑ i ∈ s, (x i - μ) * (x i - μ)) / n :=
  div_nonneg (Finset.sum_nonneg fun i _ => mul_self_nonneg _) hn.le

/-- So clamping the one-pass variance below at zero changes nothing: it is the centred variance. -/
theorem max_var_onepass (s : Finset ι) (x : ι → ℝ) (n : ℝ) (hn : (s.card : ℝ) = n) (h0 : 0 < n) :
    max ((∑ i ∈ s, x i * x i) / n - (∑ i ∈ s, x i) / n * ((∑ i ∈ s, x i) / n)) 0
      = (∑ i ∈ s, (x i - (∑ j ∈ s, x j) / n) * (x i - (∑ j ∈ s, x j) / n)) / n := by
  rw [var_onepass_eq_centred s x n hn h0.ne']
  exact max_eq_left (centred_var_nonneg s x _ n h0)

/-- The same on the extended reals, for a family of reals: the sums, quotients, products, the difference and the
    maximum are the coercions of the real ones. The left side is the one-pass spelling with its clamp, the right
    side the centred spelling. -/
theorem max_var_onepass_ereal (s : Finset ι) (x : ι → ℝ) (n : ℝ) (hn : (s.card : ℝ) = n) (h0 : 0 < n) :
    max (Ideal.div (∑ i ∈ s, (x i : EReal) * (x i : EReal)) (n : EReal)
          - Ideal.div (∑ i ∈ s, (x i : EReal)) (n : EReal) * Ideal.div (∑ i ∈ s, (x i : EReal)) (n : EReal)) 0
      = Ideal.div (∑ i ∈ s, ((x i : EReal) - Ideal.div (∑ j ∈ s, (x j : EReal)) (n : EReal))
          * ((x i : EReal) - Ideal.div (∑ j ∈ s, (x j : EReal)) (n : EReal))) (n : EReal) := by
  have hne : n ≠ 0 := h0.ne'
  have e1 : ∑ i ∈ s, (x i : EReal) = ((∑ i ∈ s, x i : ℝ) : EReal) := (coe_sum s x).symm
  have e2 : ∑ i ∈ s, (x i : EReal) * (x i : EReal) = ((∑ i ∈ s, x i * x i : ℝ) : EReal) := by
    rw [coe_sum]; exact Finset.sum_congr rfl fun i _ => (EReal.coe_mul _ _).symm
  rw [e1, e2, div_coe_coe _ _ hne, div_coe_coe _ _ hne]
  have e3 : ∑ i ∈ s, ((x i : EReal) - (((∑ j ∈ s, x j) / n : ℝ) : EReal)) * ((x i : EReal) - (((∑ j ∈ s, x j) / n : ℝ) : EReal))
      = ((∑ i ∈ s, (x i - (∑ j ∈ s, x j) / n) * (x i - (∑ j ∈ s, x j) / n) : ℝ) : EReal) := by
    rw [coe_sum]; exact Finset.sum_congr rfl fun i _ => by rw [← EReal.coe_sub, ← EReal.coe_mul]
  rw [e3, div_coe_coe _ _ hne, ← EReal.coe_mul, ← EReal.coe_sub, ← EReal.coe_zero,
    ← EReal.coe_strictMono.monotone.map_max, max_var_onepass s x n hn h0]

end Cert.Lib.BatchStats

end
-- ==== Proof.LibReal.lean ====
/-
  Real-valued extended reals are closed under the operations the network uses.

  An extended real is called real here when it is the coercion of a real number. Sums (finite), products, differences,
  maxima and the ideal quotient of two such, and the inverse square root of a positive one, are again real.
-/
import proofs.«182163_j7275674600087_2_alg».proof.Proof.LibBatchStats

noncomputable section

namespace Cert.Lib.IsR

open Idealize.ShloMosaic Cert.Lib.BatchStats

/-- The extended real a is a real number. -/
def IsR (a : EReal) : Prop := ∃ r : ℝ, a = (r : EReal)

theorem coe (r : ℝ) : IsR (r : EReal) := ⟨r, rfl⟩
theorem zero : IsR 0 := ⟨0, rfl⟩
theorem add {a b : EReal} (ha : IsR a) (hb : IsR b) : IsR (a + b) := by
  obtain ⟨x, rfl⟩ := ha; obtain ⟨y, rfl⟩ := hb; exact ⟨x + y, (EReal.coe_add x y).symm⟩
theorem mul {a b : EReal} (ha : IsR a) (hb : IsR b) : IsR (a * b) := by
  obtain ⟨x, rfl⟩ := ha; obtain ⟨y, rfl⟩ := hb; exact ⟨x * y, (EReal.coe_mul x y).symm⟩
theorem sub {a b : EReal} (ha : IsR a) (hb : IsR b) : IsR (a - b) := by
  obtain ⟨x, rfl⟩ := ha; obtain ⟨y, rfl⟩ := hb; exact ⟨x - y, (EReal.coe_sub x y).symm⟩
theorem max {a b : EReal} (ha : IsR a) (hb : IsR b) : IsR (Max.max a b) := by
  rcases max_choice a b with h | h <;> rw [h] <;> assumption
theorem sum {ι : Type*} (s : Finset ι) (f : ι → EReal) (h : ∀ i ∈ s, IsR (f i)) : IsR (∑ i ∈ s, f i) := by
  classical
  induction s using Finset.induction_on with
  | empty => simpa using zero
  | insert a s ha ih =>
    rw [Finset.sum_insert ha]
    exact add (h a (Finset.mem_insert_self a s)) (ih fun i hi => h i (Finset.mem_insert_of_mem hi))
theorem div {a : EReal} (ha : IsR a) (n : ℝ) (hn : n ≠ 0) : IsR (Ideal.div a (n : EReal)) := by
  obtain ⟨x, rfl⟩ := ha; exact ⟨x / n, div_coe_coe x n hn⟩
/-- The inverse square root of a positive real is real. -/
theorem rsqrt_pos (r : ℝ) (h : 0 < r) : IsR (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr h.le), if_neg h.ne']

end Cert.Lib.IsR

end
-- ==== Proof.Spec.lean ====
/-
  The mathematics of the layer, stated once, with no program in sight.

  A graph layer updates the N = 50000 node rows x (width 128) from an aggregate a of incoming messages:
      node(p, q) = x(p, q) + ( Σ_k relu( Σ_l (x(p, l) + a(p, l)) · W1(l, k) + b1(k) ) · W2(k, q) + b2(q) ),
  and then normalises every column over the batch of rows. Two spellings of that normalisation are compared here
  over one column f (f(p) = node(p, q)), with mean mu = (Σ f) / N:
    * the folded one:   f(p) · s + (b − mu · s),  s = w · rsqrt(v₁ + ε),  v₁ = (Σ f²) / N − mu · mu   (one-pass variance);
    * the centred one:  (f(p) − mu) · rsqrt(v₂ + ε) · w + b,           v₂ = (Σ (f − mu)²) / N.
  For a column of real numbers v₁ = v₂ (the variance identity), v₂ ≥ 0 so v₂ + ε > 0 and the inverse square root is a
  real number, and the two affine forms agree by distributivity. Distributivity fails at the infinities, which is
  why the column must be real; the node update of real inputs is real, being built from sums, products and maxima.
-/
import Idealize.ShloMosaic.PureOps.Ideal
import Idealize.ShloMosaic.PureOps.Ideal.Laws
import Idealize.ShloMosaic.Lib.ValueIdx
import proofs.«182163_j7275674600087_2_alg».proof.Proof.LibBatchStats
import proofs.«182163_j7275674600087_2_alg».proof.Proof.LibReal

noncomputable section

namespace Cert.GinBn

open Idealize.ShloMosaic Idealize.ShloMosaic.ValueIdx Cert.Lib.BatchStats Cert.Lib.IsR

/-! ## The two literals -/

/-- The batch size as the programs spell it: the float 50000.0. -/
abbrev nLit : EReal := Ideal.ofBits .f32 0x47435000#32
/-- The variance offset as the programs spell it: the float nearest 1e-5. -/
abbrev epsLit : EReal := Ideal.ofBits .f32 0x3727C5AC#32

/-- The float 50000.0 denotes the real 50000. -/
theorem nLit_eq : nLit = ((50000 : ℝ) : EReal) := by
  simp [nLit, Ideal.ofBits, Ideal.ieee, -EReal.coe_mul]; norm_num

/-- The variance offset denotes a positive real, 10995116 / 2^40. -/
theorem epsLit_eq : epsLit = ((10995116 / 1099511627776 : ℝ) : EReal) := by
  simp [epsLit, Ideal.ofBits, Ideal.ieee, -EReal.coe_mul]; norm_num

/-! ## The node update -/

/-- The node update at row p and column q. -/
def node (X A : (⟨2, ![50000, 128]⟩ : Shape).Idx → EReal) (W1 : (⟨2, ![128, 128]⟩ : Shape).Idx → EReal)
    (B1 : (⟨1, ![128]⟩ : Shape).Idx → EReal) (W2 : (⟨2, ![128, 128]⟩ : Shape).Idx → EReal)
    (B2 : (⟨1, ![128]⟩ : Shape).Idx → EReal) (p : Fin 50000) (q : Fin 128) : EReal :=
  X (ix2 p q) + ((∑ k : Fin 128, max ((∑ l : Fin 128, (X (ix2 p l) + A (ix2 p l)) * W1 (ix2 l k)) + B1 (ix1 k)) 0
    * W2 (ix2 k q)) + B2 (ix1 q))

/-- The node update of real arrays is real. -/
theorem node_isR {X A : (⟨2, ![50000, 128]⟩ : Shape).Idx → EReal} {W1 W2 : (⟨2, ![128, 128]⟩ : Shape).Idx → EReal}
    {B1 B2 : (⟨1, ![128]⟩ : Shape).Idx → EReal} (hX : ∀ i, IsR (X i)) (hA : ∀ i, IsR (A i)) (hW1 : ∀ i, IsR (W1 i))
    (hB1 : ∀ i, IsR (B1 i)) (hW2 : ∀ i, IsR (W2 i)) (hB2 : ∀ i, IsR (B2 i)) (p : Fin 50000) (q : Fin 128) :
    IsR (node X A W1 B1 W2 B2 p q) :=
  Lib.IsR.add (hX _) (Lib.IsR.add (Lib.IsR.sum _ _ fun k _ => Lib.IsR.mul (Lib.IsR.max (Lib.IsR.add (Lib.IsR.sum _ _ fun l _ =>
    Lib.IsR.mul (Lib.IsR.add (hX _) (hA _)) (hW1 _)) (hB1 _)) Lib.IsR.zero) (hW2 _)) (hB2 _))

/-! ## The two normalisations of a column -/

/-- The folded normalisation (one-pass variance, scale and shift folded) of column f at row p. -/
def bnFolded (f : Fin 50000 → EReal) (w b : EReal) (p : Fin 50000) : EReal :=
  f p * (w * Ideal.rsqrt ((Ideal.div (∑ i, f i * f i) nLit - Ideal.div (∑ i, f i) nLit * Ideal.div (∑ i, f i) nLit) + epsLit))
    + (b - Ideal.div (∑ i, f i) nLit
        * (w * Ideal.rsqrt ((Ideal.div (∑ i, f i * f i) nLit - Ideal.div (∑ i, f i) nLit * Ideal.div (∑ i, f i) nLit) + epsLit)))

/-- The centred normalisation of column f at row p. -/
def bnCentred (f : Fin 50000 → EReal) (w b : EReal) (p : Fin 50000) : EReal :=
  (f p - Ideal.div (∑ i, f i) nLit)
      * Ideal.rsqrt (Ideal.div (∑ i, (f i - Ideal.div (∑ j, f j) nLit) * (f i - Ideal.div (∑ j, f j) nLit)) nLit + epsLit)
      * w + b

/-- The inverse square root of a positive real, on the extended reals. -/
theorem rsqrt_coe_pos (r : ℝ) (h : 0 < r) : Ideal.rsqrt (r : EReal) = (((Real.sqrt r)⁻¹ : ℝ) : EReal) := by
  show (if r < 0 then (⊥ : EReal) else if r = 0 then ⊤ else (((Real.sqrt r)⁻¹ : ℝ) : EReal)) = _
  rw [if_neg (not_lt.mpr h.le), if_neg h.ne']

/-- THE LAW: on a column of real numbers, with real scale and shift, the folded and the centred normalisations
    agree. -/
theorem bnFolded_eq_bnCentred (f : Fin 50000 → EReal) (w b : EReal) (hf : ∀ i, IsR (f i)) (hw : IsR w) (hb : IsR b)
    (p : Fin 50000) : bnFolded f w b p = bnCentred f w b p := by
  choose g hg using hf
  obtain ⟨w', rfl⟩ := hw
  obtain ⟨b', rfl⟩ := hb
  have hfg : f = fun i => ((g i : ℝ) : EReal) := funext hg
  subst hfg
  have hn : (50000 : ℝ) ≠ 0 := by norm_num
  have hcard : ((Finset.univ : Finset (Fin 50000)).card : ℝ) = 50000 := by simp
  have e1 : ∑ i, ((g i : ℝ) : EReal) = ((∑ i, g i : ℝ) : EReal) := (coe_sum _ g).symm
  have e2 : ∑ i, ((g i : ℝ) : EReal) * ((g i : ℝ) : EReal) = ((∑ i, g i * g i : ℝ) : EReal) := by
    rw [coe_sum]; exact Finset.sum_congr rfl fun i _ => (EReal.coe_mul _ _).symm
  unfold bnFolded bnCentred
  simp only [nLit_eq, epsLit_eq]
  rw [e1, e2, div_coe_coe _ _ hn, div_coe_coe _ _ hn]
  have e3 : ∑ i, (((g i : ℝ) : EReal) - (((∑ j, g j) / 50000 : ℝ) : EReal)) * (((g i : ℝ) : EReal) - (((∑ j, g j) / 50000 : ℝ) : EReal))
      = ((∑ i, (g i - (∑ j, g j) / 50000) * (g i - (∑ j, g j) / 50000) : ℝ) : EReal) := by
    rw [coe_sum]; exact Finset.sum_congr rfl fun i _ => by rw [← EReal.coe_sub, ← EReal.coe_mul]
  rw [e3, div_coe_coe _ _ hn, ← EReal.coe_mul, ← EReal.coe_sub, ← EReal.coe_add, ← EReal.coe_add,
    var_onepass_eq_centred Finset.univ g 50000 hcard hn]
  have hpos : 0 < (∑ i, (g i - (∑ j, g j) / 50000) * (g i - (∑ j, g j) / 50000)) / 50000 + 10995116 / 1099511627776 :=
    add_pos_of_nonneg_of_pos (centred_var_nonneg _ g _ 50000 (by norm_num)) (by norm_num)
  rw [rsqrt_coe_pos _ hpos]
  simp only [← EReal.coe_mul, ← EReal.coe_sub, ← EReal.coe_add]
  refine congrArg (fun r : ℝ => (r : EReal)) ?_
  ring

end Cert.GinBn

end
-- ==== Proof.Finite.lean ====
/-
  The precondition, read back: every entry of every float argument is a real number.

  The precondition takes, for each of the eight float arrays x, the conjunction over all indices i of the comparison
  |x(i)| < +∞, and then the conjunction of the eight results; the claim assumes the outcome is 1. A conjunction of
  one-bit words is 1 only when every one of them is 1, so |x(i)| < +∞ holds at every index of every array. At the
  ideal reading a float is an extended real and |x| = max(x, −x): this is +∞ at both infinities, so an extended real
  with |x| < +∞ is neither of them, that is, it is a real number.
-/
import Idealize.ShloMosaic.PureOps.Ideal
import Idealize.ShloMosaic.PureOps.Ideal.Laws
import Idealize.ShloMosaic.Lib.ValueIdx
import Idealize.ShloMosaic.Lib.ReduceAll
import proofs.«182163_j7275674600087_2_alg».proof.Pre_finite_inputs
import proofs.«182163_j7275674600087_2_alg».proof.Proof.LibReal

noncomputable section

namespace Cert.GinBn.Finite

open Idealize.ShloMosaic Cert.Pre_finite_inputs

/-- The rank-0 shape has one index. -/
instance subsingleton_S_ : Subsingleton S_.Idx := ⟨fun a b => funext fun d => d.elim0⟩

/-- The word 0x7F800000 denotes +∞. -/
theorem inf_eq : Ideal.ofBits .f32 0x7F800000#32 = (⊤ : EReal) := by simp [Ideal.ofBits, Ideal.ieee]

/-- An extended real whose absolute value max(a, −a) compares below +∞ is a real number. -/
theorem isR_of_abs_lt (a : EReal) (h : Ideal.cmp .olt (max a (-a)) (Ideal.ofBits .f32 0x7F800000#32) = 1#1) :
    Cert.Lib.IsR.IsR a := by
  rw [inf_eq] at h
  have hlt : max a (-a) < (⊤ : EReal) := by
    by_contra hn
    have : Ideal.cmp .olt (max a (-a)) (⊤ : EReal) = 0#1 := by
      show BitVec.ofBool (decide (max a (-a) < (⊤ : EReal))) = 0#1
      rw [decide_eq_false hn]; rfl
    rw [this] at h
    exact absurd h (by decide)
  induction a using EReal.rec with
  | bot => exact absurd hlt (by simp)
  | coe r => exact ⟨r, rfl⟩
  | top => exact absurd hlt (by simp)

/-- One array: if the conjunction over all indices of |x(i)| < +∞ is 1 then every entry of x is a real number. -/
theorem isR_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ValueIdx.ix0 = 1#1) :
    ∀ i, Cert.Lib.IsR.IsR (x i) := by
  intro i
  have h := Host.reduce_andi_all _ _ hr hu _ e i
  exact isR_of_abs_lt (x i) h

/-- The precondition decoded: each of the eight float arguments has only real entries. -/
theorem isR_of_pre [Cert.Pre_finite_inputs.Facts] (a0 : FVec Ideal S50000x128 .f32) (a1 : IVec S2x800000 32)
    (a2 : FVec Ideal S800000x128 .f32) (a3 : FVec Ideal S128x128 .f32) (a4 : FVec Ideal S128 .f32)
    (a5 : FVec Ideal S128x128 .f32) (a6 a7 a8 : FVec Ideal S128 .f32)
    (h : Cert.Pre_finite_inputs.fn (F := Ideal) a0 a1 a2 a3 a4 a5 a6 a7 a8 = fun _ => 1#1) :
    (∀ i, Cert.Lib.IsR.IsR (a0 i)) ∧ (∀ i, Cert.Lib.IsR.IsR (a2 i)) ∧ (∀ i, Cert.Lib.IsR.IsR (a3 i))
      ∧ (∀ i, Cert.Lib.IsR.IsR (a4 i)) ∧ (∀ i, Cert.Lib.IsR.IsR (a5 i)) ∧ (∀ i, Cert.Lib.IsR.IsR (a6 i))
      ∧ (∀ i, Cert.Lib.IsR.IsR (a7 i)) ∧ (∀ i, Cert.Lib.IsR.IsR (a8 i)) := by
  have e := congrFun h ValueIdx.ix0
  dsimp only [fn, fn_part1, fn_part2, andi] at e
  simp only [IntOp.andi_eq_one] at e
  obtain ⟨⟨⟨⟨⟨⟨⟨e0, e2⟩, e3⟩, e4⟩, e5⟩, e6⟩, e7⟩, e8⟩ := e
  exact ⟨isR_of_all a0 Facts.bcast_S_S50000x128 Facts.reducesTo_S50000x128_S_d0_1 Facts.h_S_ e0,
    isR_of_all a2 Facts.bcast_S_S800000x128 Facts.reducesTo_S800000x128_S_d0_1 Facts.h_S_ e2,
    isR_of_all a3 Facts.bcast_S_S128x128 Facts.reducesTo_S128x128_S_d0_1 Facts.h_S_ e3,
    isR_of_all a4 Facts.bcast_S_S128 Facts.reducesTo_S128_S_d0 Facts.h_S_ e4,
    isR_of_all a5 Facts.bcast_S_S128x128 Facts.reducesTo_S128x128_S_d0_1 Facts.h_S_ e5,
    isR_of_all a6 Facts.bcast_S_S128 Facts.reducesTo_S128_S_d0 Facts.h_S_ e6,
    isR_of_all a7 Facts.bcast_S_S128 Facts.reducesTo_S128_S_d0 Facts.h_S_ e7,
    isR_of_all a8 Facts.bcast_S_S128 Facts.reducesTo_S128_S_d0 Facts.h_S_ e8⟩

end Cert.GinBn.Finite

end
-- ==== Proof.KernelRun.lean ====
/-
  The idealized kernel's run with its result named.

  Every weakly fair execution of the kernel's program from a memory with zero counters terminates without a fault,
  leaves the nine argument arrays as launched, and leaves the result array at what the fold of the program's
  segments — three stretches of host operations, the node region, one more stretch, the normalisation region —
  computes for it from the launch memory. The run is the one that shows the arguments unchanged; the result array is
  one more unscoped buffer read off the same final valuation.
-/
import proofs.«182163_j7275674600087_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array ends at the last boundary's contents, the arguments as launched. -/
theorem run_named : θ_run defs (onTc (τ := τ) (main (F := F))) ⟨m, fun _ => 0, ρ⟩ (fun r => ∀ c : Dev nD,
      r.2.mem ((c.tc : Thread nD τ).loc main_v33) = W6 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v33 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunValue

end
-- ==== Proof.Boundary.lean ====
/-
  What the node region finds in its input arrays.

  Before the first region the kernel's program runs three stretches of host operations on the launch memory: it
  splits the edge index into its source and destination rows, wraps negative source indices by the row count, gathers
  the source rows of x, adds the edge attributes, clamps at zero (the message), scatter-adds the messages into a zero
  array by destination (the aggregate), and narrows the two weight matrices to bf16 — the identity on extended reals.
  So at the region's entry: x, b1 and b2 are as launched, the weights are the launched ones, and the aggregate is one
  fixed function of x, the edge index and the edge attributes, spelt here once as the stretch spells it.
-/
import proofs.«182163_j7275674600087_2_alg».proof.Proof.Gen.KernelIdeal.Frame
import Idealize.ShloMosaic.Lib.StableHlo.Run
import Idealize.ShloMosaic.PureOps.Ideal

set_option maxRecDepth 16384

noncomputable section

namespace Cert.KernelIdeal.Boundary

open Idealize.ShloMosaic Idealize.ShloMosaic.TcCoe Idealize.SL.Sem Cert.KernelIdeal Cert.KernelIdeal.Gen

/-- Row k (0: sources, 1: destinations) of the edge index, as a vector of 800000 integers. -/
def edgeRow0 (EI : IVec S2x800000 32) : IVec S800000 32 :=
  fun i => shapeCast S800000 (extractStridedSlice S1x800000 ![0, 0] EI Facts₀.slices_S2x800000_S1x800000_0_0) Facts₀.shapeCasts_S1x800000_S800000 i
def edgeRow1 (EI : IVec S2x800000 32) : IVec S800000 32 :=
  fun i => shapeCast S800000 (extractStridedSlice S1x800000 ![1, 0] EI Facts₀.slices_S2x800000_S1x800000_1_0) Facts₀.shapeCasts_S1x800000_S800000 i

/-- The messages: the gathered source rows (a negative index wrapped by 50000) plus the edge attributes, clamped at zero. -/
def msgK (X : FVec Ideal S50000x128 .f32) (EI : IVec S2x800000 32) (EA : FVec Ideal S800000x128 .f32) : FVec Ideal S800000x128 .f32 :=
  maximumf
    (addf
      (Host.gather gather_S50000x128_S800000x1_S800000x128_1_0_n_n_0_1_1128 X
        (broadcastInDim S800000x1 ![0] Facts₀.bcast_S800000_S800000x1_0
          (select (cmpi .slt (edgeRow0 EI) (broadcastInDim S800000 ![] Facts₀.bcast_S_S800000 (constantI S_ 32 0#32)))
            (addi (edgeRow0 EI) (broadcastInDim S800000 ![] Facts₀.bcast_S_S800000 (constantI S_ 32 50000#32)))
            (edgeRow0 EI))))
      EA)
    (broadcastInDim S800000x128 ![] Facts₀.bcast_S_S800000x128 (constant (F := Ideal) S_ .f32 0x00000000#32))

/-- The aggregate: the messages summed into a zero array at their destination rows. -/
def aggrK (X : FVec Ideal S50000x128 .f32) (EI : IVec S2x800000 32) (EA : FVec Ideal S800000x128 .f32) : FVec Ideal S50000x128 .f32 :=
  Host.scatterAdd scatter_S50000x128_S800000x1_S800000x128_1_0_0_1
    (broadcastInDim S50000x128 ![] Facts₀.bcast_S_S50000x128 (constant (F := Ideal) S_ .f32 0x00000000#32))
    (broadcastInDim S800000x1 ![0] Facts₀.bcast_S800000_S800000x1_0 (edgeRow1 EI))
    (msgK X EI EA)

/-- Whatever the launch contents Wv, after the three stretches the aggregate's array holds the aggregate of Wv's x, edge
    index and edge attributes. -/
theorem aggr_of (Wv : Valuation τ sig (Elt Ideal)) :
    StableHlo.after hostOps0_2 (StableHlo.after hostOps0_1 (StableHlo.after hostOps0 Wv)) (Proc.devRef .tc main_v15)
      = aggrK (Wv (Proc.devRef .tc main_arg0)) (Wv (Proc.devRef .tc main_arg1)) (Wv (Proc.devRef .tc main_arg2)) := by
  refine Eq.trans (b := ?T) ?h1 ?h2
  case h1 => after_results <;> rfl
  case h2 => rfl

/-- The three stretches leave x, the two bias vectors, the layer's weight and its bias as they find them. -/
theorem x_of (Wv : Valuation τ sig (Elt Ideal)) :
    StableHlo.after hostOps0_2 (StableHlo.after hostOps0_1 (StableHlo.after hostOps0 Wv)) (Proc.devRef .tc main_arg0)
      = Wv (Proc.devRef .tc main_arg0) := by
  after_results <;> rfl
theorem b1_of (Wv : Valuation τ sig (Elt Ideal)) :
    StableHlo.after hostOps0_2 (StableHlo.after hostOps0_1 (StableHlo.after hostOps0 Wv)) (Proc.devRef .tc main_arg4)
      = Wv (Proc.devRef .tc main_arg4) := by
  after_results <;> rfl
theorem b2_of (Wv : Valuation τ sig (Elt Ideal)) :
    StableHlo.after hostOps0_2 (StableHlo.after hostOps0_1 (StableHlo.after hostOps0 Wv)) (Proc.devRef .tc main_arg6)
      = Wv (Proc.devRef .tc main_arg6) := by
  after_results <;> rfl
theorem bnw_of (Wv : Valuation τ sig (Elt Ideal)) :
    StableHlo.after hostOps0_2 (StableHlo.after hostOps0_1 (StableHlo.after hostOps0 Wv)) (Proc.devRef .tc main_arg7)
      = Wv (Proc.devRef .tc main_arg7) := by
  after_results <;> rfl
theorem bnb_of (Wv : Valuation τ sig (Elt Ideal)) :
    StableHlo.after hostOps0_2 (StableHlo.after hostOps0_1 (StableHlo.after hostOps0 Wv)) (Proc.devRef .tc main_arg8)
      = Wv (Proc.devRef .tc main_arg8) := by
  after_results <;> rfl

/-- Narrowing a weight matrix to bf16 is the identity on extended reals: the region finds the launched weights. -/
theorem w1_of (Wv : Valuation τ sig (Elt Ideal)) :
    (StableHlo.after hostOps0_2 (StableHlo.after hostOps0_1 (StableHlo.after hostOps0 Wv)) (Proc.devRef .tc main_v16)
        : S128x128.Idx → EReal)
      = (Wv (Proc.devRef .tc main_arg3) : S128x128.Idx → EReal) := by
  after_results <;> rfl
theorem w2_of (Wv : Valuation τ sig (Elt Ideal)) :
    (StableHlo.after hostOps0_2 (StableHlo.after hostOps0_1 (StableHlo.after hostOps0 Wv)) (Proc.devRef .tc main_v17)
        : S128x128.Idx → EReal)
      = (Wv (Proc.devRef .tc main_arg5) : S128x128.Idx → EReal) := by
  after_results <;> rfl

end Cert.KernelIdeal.Boundary

end
-- ==== Proof.Fold.lean ====
/-
  What the normalisation region finds in its input arrays.

  Between the two regions the kernel's program runs one stretch of host operations on the per-block partial sums S
  and partial sums of squares SS (arrays [10, 1, 128]) that the node region wrote: per column, it adds the ten
  partial sums, divides by the row count to get the mean and the mean of squares, takes the one-pass variance
  (mean of squares less the squared mean), adds the offset, takes the inverse square root, and folds the layer's
  weight and bias into a scale and a shift:
      scale = w · rsqrt(var + ε),   shift = b − mean · scale.
  The stretch leaves the node region's output array untouched.
-/
import proofs.«182163_j7275674600087_2_alg».proof.Proof.Gen.KernelIdeal.Frame
import Idealize.ShloMosaic.Lib.StableHlo.Run
import Idealize.ShloMosaic.PureOps.Ideal

set_option maxRecDepth 16384

noncomputable section

namespace Cert.KernelIdeal.Fold

open Idealize.ShloMosaic Idealize.ShloMosaic.TcCoe Idealize.SL.Sem Cert.KernelIdeal Cert.KernelIdeal.Gen

/-- A column's total over the ten blocks, divided by the row count. -/
def meanK (S : FVec Ideal S10x1x128 .f32) : FVec Ideal S128 .f32 :=
  Host.divf
    (Host.reduceAdd S (constant (F := Ideal) S_ .f32 0x00000000#32) Facts₀.reducesTo_S10x1x128_S128_d0_1 Facts₀.h_S_)
    (broadcastInDim S128 ![] Facts₀.bcast_S_S128 (constant (F := Ideal) S_ .f32 0x47435000#32))

/-- The folded scale: the weight times the inverse square root of the one-pass variance plus the offset. -/
def scaleK (S SS : FVec Ideal S10x1x128 .f32) (BW : FVec Ideal S128 .f32) : FVec Ideal S128 .f32 :=
  mulf BW (Host.rsqrt (addf (subf (meanK SS) (mulf (meanK S) (meanK S)))
    (broadcastInDim S128 ![] Facts₀.bcast_S_S128 (constant (F := Ideal) S_ .f32 0x3727C5AC#32))))

/-- The folded shift: the bias less the mean times the scale. -/
def shiftK (S SS : FVec Ideal S10x1x128 .f32) (BW BB : FVec Ideal S128 .f32) : FVec Ideal S128 .f32 :=
  subf BB (mulf (meanK S) (scaleK S SS BW))

/-- The stretch computes the scale from the partial sums and the weight it finds. -/
theorem scale_of (Wv : Valuation τ sig (Elt Ideal)) :
    StableHlo.after hostOps1 Wv (Proc.devRef .tc main_v30)
      = scaleK (Wv (Proc.devRef .tc main_v18_1)) (Wv (Proc.devRef .tc main_v18_2)) (Wv (Proc.devRef .tc main_arg7)) := by
  refine Eq.trans (b := ?T) ?h1 ?h2
  case h1 => after_results <;> rfl
  case h2 => rfl

/-- The stretch computes the shift from the partial sums, the weight and the bias it finds. -/
theorem shift_of (Wv : Valuation τ sig (Elt Ideal)) :
    StableHlo.after hostOps1 Wv (Proc.devRef .tc main_v32)
      = shiftK (Wv (Proc.devRef .tc main_v18_1)) (Wv (Proc.devRef .tc main_v18_2)) (Wv (Proc.devRef .tc main_arg7))
          (Wv (Proc.devRef .tc main_arg8)) := by
  refine Eq.trans (b := ?T) ?h1 ?h2
  case h1 => after_results <;> rfl
  case h2 => rfl

/-- The stretch leaves the node region's output array as it finds it. -/
theorem keep_h (Wv : Valuation τ sig (Elt Ideal)) :
    StableHlo.after hostOps1 Wv (Proc.devRef .tc main_v18_0) = Wv (Proc.devRef .tc main_v18_0) := by
  after_results <;> rfl

end Cert.KernelIdeal.Fold

end
-- ==== Proof.BlockSums.lean ====
/-
  Two facts about sums, with no program in sight.

  Fifty thousand rows cut into ten consecutive blocks of five thousand: summing block by block, and inside each block
  row by row, visits every row exactly once, because (t, r) ↦ 5000·t + r is a bijection from the pairs onto the rows.

  A [10, 1, 128] array summed over its first two axes: the entries that land on column q are exactly the ten entries
  (t, 0, q), the middle axis having one coordinate only, so the sum at q is the sum over t of those ten.
-/
import Idealize.ShloMosaic.PureOps.Ideal
import Idealize.ShloMosaic.PureOps.Ideal.Laws
import Idealize.ShloMosaic.Lib.ValueIdx

noncomputable section

namespace Cert.GinBn

open Idealize.ShloMosaic Idealize.ShloMosaic.ValueIdx

/-- Ten blocks of five thousand rows exhaust the fifty thousand rows: the pair (t, r) is sent to row 5000·t + r, and
    this is the bijection of the pairs with the rows that counts block by block. -/
theorem sum_blocks (g : Fin 50000 → EReal) :
    ∑ t : Fin 10, ∑ r : Fin 5000, g ⟨5000 * t.val + r.val, by omega⟩ = ∑ p : Fin 50000, g p := by
  rw [← Fintype.sum_prod_type' (f := fun (t : Fin 10) (r : Fin 5000) => g ⟨5000 * t.val + r.val, by omega⟩)]
  refine Fintype.sum_equiv (finProdFinEquiv.trans (finCongr (by norm_num))) _ _ fun x => ?_
  refine congrArg g (Fin.ext ?_)
  show 5000 * x.1.val + x.2.val = x.2.val + 5000 * x.1.val
  omega

/-- The host's sum of a [10, 1, 128] array over its first two axes, read at column q: the initial value plus the ten
    entries (t, 0, q). An index drops to q exactly when its last coordinate is q; its middle coordinate can only be 0;
    so the indices summed at q are the image of t ↦ (t, 0, q). -/
theorem hostReduce_parts (h' : (⟨3, ![10, 1, 128]⟩ : Shape).ReducesTo [0, 1] ⟨1, ![128]⟩)
    (P : (⟨3, ![10, 1, 128]⟩ : Shape).Idx → EReal) (init : EReal) (q : Fin 128) :
    Ideal.hostReduceAdd h' P init (ix1 q) = init + ∑ t : Fin 10, P (ix3 t (0 : Fin 1) q) := by
  unfold Ideal.hostReduceAdd
  refine congrArg (fun s => init + s) ?_
  have key : ∀ i : (⟨3, ![10, 1, 128]⟩ : Shape).Idx, h'.drop i = ix1 q ↔ (i 2).val = q.val := by
    intro i
    have hd : ((h'.drop i 0 : Fin 128) : Nat) = (i 2).val := Shape.ReducesTo.drop_apply_val_of_eq h' i 0 2
    constructor
    · intro h
      rw [← hd, h]
    · intro h
      funext b
      match b with
      | ⟨0, _⟩ => exact Fin.ext (hd.trans h)
  symm
  refine Finset.sum_bij' (fun t _ => ix3 t (0 : Fin 1) q) (fun i _ => (i 0 : Fin 10)) ?_ ?_ ?_ ?_ ?_
  · intro t _
    rw [Finset.mem_filter]
    exact ⟨Finset.mem_univ _, (key _).mpr rfl⟩
  · intro i _
    exact Finset.mem_univ _
  · intro t _
    rfl
  · intro i hi
    rw [Finset.mem_filter] at hi
    have h2 : (i 2).val = q.val := (key i).mp hi.2
    have h1 : (i 1).val = 0 := by
      have : (i 1).val < 1 := (i 1).isLt
      omega
    funext a
    match a with
    | ⟨0, _⟩ => rfl
    | ⟨1, _⟩ => exact Fin.ext h1.symm
    | ⟨2, _⟩ => exact Fin.ext h2.symm
  · intro t _
    rfl

end Cert.GinBn

end
-- ==== Proof.Stats.lean ====
/-
  From the per-block partial sums to the folded normalisation of a column.

  Fix a column H of fifty thousand numbers, cut into ten blocks of five thousand rows. If S holds the ten block sums
  of H and SS the ten block sums of H², then the ten-term totals are the sum and the sum of squares of the whole
  column, so the mean and the one-pass variance computed from S and SS are the column's, and an entry of the column
  times the scale plus the shift is the folded normalisation of the column at that row.
-/
import proofs.«182163_j7275674600087_2_alg».proof.Proof.Spec
import proofs.«182163_j7275674600087_2_alg».proof.Proof.Fold
import proofs.«182163_j7275674600087_2_alg».proof.Proof.BlockSums
import Idealize.ShloMosaic.Lib.IdealHost

set_option maxRecDepth 16384

noncomputable section

namespace Cert.KernelIdeal.Fold

open Idealize.ShloMosaic Idealize.ShloMosaic.ValueIdx Cert.KernelIdeal Cert.GinBn

/-- The mean at column q: the ten partial sums added, divided by the row count. -/
theorem meanK_apply (S : FVec Ideal S10x1x128 .f32) (q : Fin 128) :
    meanK S (ix1 q) = Ideal.div (∑ t : Fin 10, S (ix3 t (0 : Fin 1) q)) nLit := by
  unfold meanK
  rw [hostDivf_apply, hostReduceAdd_apply, broadcastInDim_scalar_apply, constant_apply, constant_apply,
    Cert.GinBn.hostReduce_parts, Ideal.ofBits_zero_f32, zero_add]

/-- The scale at column q. -/
theorem scaleK_apply (S SS : FVec Ideal S10x1x128 .f32) (BW : FVec Ideal S128 .f32) (q : Fin 128) :
    scaleK S SS BW (ix1 q)
      = BW (ix1 q) * Ideal.rsqrt ((meanK SS (ix1 q) - meanK S (ix1 q) * meanK S (ix1 q)) + epsLit) := by
  show BW (ix1 q) * Ideal.rsqrt ((meanK SS (ix1 q) - meanK S (ix1 q) * meanK S (ix1 q))
    + broadcastInDim S128 ![] Facts₀.bcast_S_S128 (constant (F := Ideal) S_ .f32 0x3727C5AC#32) (ix1 q)) = _
  rw [broadcastInDim_scalar_apply, constant_apply]

/-- The shift at column q. -/
theorem shiftK_apply (S SS : FVec Ideal S10x1x128 .f32) (BW BB : FVec Ideal S128 .f32) (q : Fin 128) :
    shiftK S SS BW BB (ix1 q) = BB (ix1 q) - meanK S (ix1 q) * scaleK S SS BW (ix1 q) := rfl

/-- An entry of the column times the scale plus the shift is the folded normalisation of the column. -/
theorem folded_eq (H : Fin 50000 → EReal) (S SS : FVec Ideal S10x1x128 .f32) (BW BB : FVec Ideal S128 .f32) (q : Fin 128)
    (hS : ∀ t : Fin 10, S (ix3 t (0 : Fin 1) q) = ∑ r : Fin 5000, H ⟨5000 * t.val + r.val, by omega⟩)
    (hSS : ∀ t : Fin 10, SS (ix3 t (0 : Fin 1) q)
      = ∑ r : Fin 5000, H ⟨5000 * t.val + r.val, by omega⟩ * H ⟨5000 * t.val + r.val, by omega⟩)
    (p : Fin 50000) :
    H p * scaleK S SS BW (ix1 q) + shiftK S SS BW BB (ix1 q) = bnFolded H (BW (ix1 q)) (BB (ix1 q)) p := by
  have e1 : meanK S (ix1 q) = Ideal.div (∑ i, H i) nLit := by
    rw [meanK_apply, ← sum_blocks H]
    exact congrArg (fun s => Ideal.div s nLit) (Finset.sum_congr rfl fun t _ => hS t)
  have e2 : meanK SS (ix1 q) = Ideal.div (∑ i, H i * H i) nLit := by
    rw [meanK_apply, ← sum_blocks (fun i => H i * H i)]
    exact congrArg (fun s => Ideal.div s nLit) (Finset.sum_congr rfl fun t _ => hSS t)
  rw [shiftK_apply, scaleK_apply, e1, e2]
  rfl

end Cert.KernelIdeal.Fold

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.NodeRegion.lean ====
/-
  The kernel's first region: the node update, block by block.

  The region walks a grid of 10 points. At point t it holds rows 5000·t … 5000·t + 4999 of x and of the aggregate a,
  and the whole of W1, b1, W2, b2. On that block of rows it forms
      h = x + a,   hidden = max(h · W1 + b1, 0),   mlp = hidden · W2 + b2,   out = x + mlp,
  and writes back out as rows 5000·t … 5000·t + 4999 of the output array, and, per column, the sum of those 5000
  entries and the sum of their squares as entry (t, 0, ·) of two [10, 1, 128] arrays. On the extended reals a change
  of float format is the identity and a matrix product accumulated from zero is the exact inner product, so entry
  (p, q) of the written block is the node update `Cert.GinBn.node` of the arrays at row 5000·t + p and column q.
  The row blocks tile the output (row r lies in block r / 5000), hence the output array is the node update at every
  index, and the two small arrays hold its column sums and column sums of squares over each block of rows.
-/
import proofs.«182163_j7275674600087_2_alg».proof.Proof.Spec
import proofs.«182163_j7275674600087_2_alg».proof.Proof.Gen.KernelIdeal.Frame
import proofs.«182163_j7275674600087_2_alg».proof.Proof.LibMatmulNN
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.NodeRegion

open Cert.KernelIdeal Cert.KernelIdeal.Gen Idealize.ShloMosaic Idealize.ShloMosaic.ValueIdx
open Idealize.ShloMosaic.TcCoe
open Idealize.ShloMosaic.Pipeline (Dat)

/-- The node update over one block of 5000 rows. -/
def blockNode (x a : FVec Ideal S5000x128 .f32) (w1 : FVec Ideal S128x128 .bf16) (b1 : FVec Ideal S128 .f32)
    (w2 : FVec Ideal S128x128 .bf16) (b2 : FVec Ideal S128 .f32) (p : Fin 5000) (q : Fin 128) : EReal :=
  x (ix2 p q) + ((∑ k : Fin 128, max ((∑ l : Fin 128, (x (ix2 p l) + a (ix2 p l)) * w1 (ix2 l k)) + b1 (ix1 k)) 0
    * w2 (ix2 k q)) + b2 (ix1 q))

/-- A bias vector laid out as one row and repeated down the 5000 rows reads, at (r, c), its entry c. -/
theorem biasRows_apply (b : FVec Ideal S128 .f32) (r : Fin 5000) (c : Fin 128) :
    broadcastTo S5000x128 (shapeCast S1x128 b shapeCasts_S128_S1x128) broadcasts_S1x128_S5000x128 (ix2 r c) = b (ix1 c) :=
  (broadcastTo_1b_ab_apply _ _ r c).trans (shapeCast_a_1a_apply b _ 0 c)

/-- The product of a 5000×128 block by a 128×128 matrix, accumulated from zero, at (r, c). -/
theorem blockMatmul_apply (l : FVec Ideal S5000x128 .bf16) (w : FVec Ideal S128x128 .bf16) (r : Fin 5000) (c : Fin 128) :
    matmul dot_S5000x128_S128x128_S5000x128_1_0_0_1_n_n none l (shapeCast S128x128 w shapeCasts_S128x128_S128x128)
        (constant S5000x128 .f32 0x00000000#32) (ix2 r c)
      = ∑ k : Fin 128, l (ix2 r k) * w (ix2 k c) := by
  rw [shapeCast_self]
  exact Cert.MatmulNN.matmul_zero_apply dot_S5000x128_S128x128_S5000x128_1_0_0_1_n_n rfl none l w r c

/-- Entry (p, q) of the block the body stores to the output window is the node update over the loaded blocks. -/
theorem pay1_apply (x a : FVec Ideal S5000x128 .f32) (w1 : FVec Ideal S128x128 .bf16) (b1 : FVec Ideal S128 .f32)
    (w2 : FVec Ideal S128x128 .bf16) (b2 : FVec Ideal S128 .f32) (p : Fin 5000) (q : Fin 128) :
    k0_pay1 (F := Ideal) x a w1 b1 w2 b2 (ix2 p q) = blockNode x a w1 b1 w2 b2 p q := by
  unfold k0_pay1 blockNode
  rw [addf_apply, addf_apply, biasRows_apply, blockMatmul_apply]
  refine congrArg (fun s => x (ix2 p q) + (s + b2 (ix1 q))) (Finset.sum_congr rfl fun k _ => ?_)
  rw [truncf_apply, maximumf_apply, addf_apply, biasRows_apply, blockMatmul_apply, broadcast_apply]
  rw [show (FloatOps.ofBits (F := Ideal) .f32 0x00000000#32 : EReal) = 0 from Ideal.ofBits_zero_f32]
  refine congrArg (fun s => max (s + b1 (ix1 k)) 0 * w2 (ix2 k q)) (Finset.sum_congr rfl fun l _ => ?_)
  rw [truncf_apply, addf_apply, shapeCast_self]

/-- The sum down the 5000 rows of a block, kept as a [1,1,128] tile, reads at (·, ·, c) the column sum. -/
theorem columnSum_apply (v : FVec Ideal S5000x128 .f32) (u w : Fin 1) (c : Fin 128) :
    shapeCast S1x1x128 (shapeCast S1x128
        (multiReduction .add [0] S128 v 0x00000000#32 reduces_S5000x128_S128 (.inl rfl) rfl)
        shapeCasts_S128_S1x128) shapeCasts_S1x128_S1x1x128 (ix3 u w c)
      = ∑ r : Fin 5000, v (ix2 r c) := by
  refine (shapeCast_ab_1ab_apply _ _ u w c).trans ((shapeCast_a_1a_apply _ _ w c).trans ?_)
  refine (Ideal.multiReduction_add_single v 0x00000000#32 reduces_S5000x128_S128 (.inl rfl) rfl (ix1 c)).trans ?_
  refine Finset.sum_congr rfl fun r _ => congrArg v ?_
  funext d
  apply Fin.ext
  match d with
  | ⟨0, _⟩ => rfl
  | ⟨1, _⟩ => rfl

/-- The tile stored to the first small window holds, at column q, the sum over the block's rows of the node update. -/
theorem pay2_apply (x a : FVec Ideal S5000x128 .f32) (w1 : FVec Ideal S128x128 .bf16) (b1 : FVec Ideal S128 .f32)
    (w2 : FVec Ideal S128x128 .bf16) (b2 : FVec Ideal S128 .f32) (u w : Fin 1) (q : Fin 128) :
    k0_pay2 (F := Ideal) x a w1 b1 w2 b2 (ix3 u w q) = ∑ r : Fin 5000, blockNode x a w1 b1 w2 b2 r q := by
  unfold k0_pay2
  refine (columnSum_apply _ u w q).trans (Finset.sum_congr rfl fun r _ => pay1_apply x a w1 b1 w2 b2 r q)

/-- The tile stored to the second small window holds, at column q, the sum over the block's rows of its square. -/
theorem pay3_apply (x a : FVec Ideal S5000x128 .f32) (w1 : FVec Ideal S128x128 .bf16) (b1 : FVec Ideal S128 .f32)
    (w2 : FVec Ideal S128x128 .bf16) (b2 : FVec Ideal S128 .f32) (u w : Fin 1) (q : Fin 128) :
    k0_pay3 (F := Ideal) x a w1 b1 w2 b2 (ix3 u w q)
      = ∑ r : Fin 5000, blockNode x a w1 b1 w2 b2 r q * blockNode x a w1 b1 w2 b2 r q := by
  unfold k0_pay3
  refine (columnSum_apply _ u w q).trans (Finset.sum_congr rfl fun r _ => ?_)
  rw [mulf_apply, pay1_apply]

/-! ## From blocks to arrays -/

variable (V : (c : Dev nD) → (b : Ref sig .tc) → Buf (Elt Ideal) ((c : Thread nD τ).loc b))

/-- The zero offsets of a rank-1, rank-2 and rank-3 access, as constant functions. -/
theorem zeroOff1 : (![0] : Fin 1 → Nat) = fun _ => 0 := funext fun a => by fin_cases a <;> rfl
theorem zeroOff2 : (![0, 0] : Fin 2 → Nat) = fun _ => 0 := funext fun a => by fin_cases a <;> rfl
theorem zeroOff3 : (![0, 0, 0] : Fin 3 → Nat) = fun _ => 0 := funext fun a => by fin_cases a <;> rfl

/-- The block index of every window at every grid point t: the row-blocked windows sit at block t, the
    weights and biases at block 0. -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0
    ∧ win0_7.index t (0 : Fin 3) = t.val ∧ win0_7.index t (1 : Fin 3) = 0 ∧ win0_7.index t (2 : Fin 3) = 0
    ∧ win0_8.index t (0 : Fin 3) = t.val ∧ win0_8.index t (1 : Fin 3) = 0 ∧ win0_8.index t (2 : Fin 3) = 0 :=
  (by decide +kernel : ∀ t : Fin grid0.N, _)

/-- The node update of the arrays the region finds, as one function of the array index. -/
def nodeArr (c : Dev nD) : S50000x128.Idx → EReal := fun i =>
  Cert.GinBn.node (V c main_arg0) (V c main_v15) (V c main_v16) (V c main_arg4) (V c main_v17) (V c main_arg6)
    ⟨(i 0).val, idx2_lt0 i⟩ ⟨(i 1).val, idx2_lt1 i⟩

/-- A grid point is below 10. -/
theorem gridPoint_lt (t : Fin cfg0.N) : t.val < 10 := by
  exact lt_of_lt_of_eq t.isLt N_0

/-- Window 0's block at point t is rows 5000·t … 5000·t + 4999 of x. -/
theorem xBlock_apply (c : Dev nD) (t : Fin cfg0.N) (p : Fin 5000) (l : Fin 128) (r : Fin 50000)
    (hr : r.val = 5000 * t.val + p.val) :
    (iblk0 V c 0 t : FVec Ideal S5000x128 .f32) (ix2 p l) = (V c main_arg0 : S50000x128.Idx → EReal) (ix2 r l) := by
  obtain ⟨e0, e1, -⟩ := blockIndex t
  unfold iblk0
  rw [View.read_apply]
  show V c main_arg0 _ = V c main_arg0 _
  congr 1
  funext a
  apply Fin.ext
  match a with
  | ⟨0, _⟩ => show win0_0.index t (0 : Fin 2) * 5000 + 1 * p.val = r.val; rw [e0, hr]; omega
  | ⟨1, _⟩ => show win0_0.index t (1 : Fin 2) * 128 + 1 * l.val = l.val; rw [e1]; omega

/-- Window 1's block at point t is the same rows of the aggregate. -/
theorem aBlock_apply (c : Dev nD) (t : Fin cfg0.N) (p : Fin 5000) (l : Fin 128) (r : Fin 50000)
    (hr : r.val = 5000 * t.val + p.val) :
    (iblk0 V c 1 t : FVec Ideal S5000x128 .f32) (ix2 p l) = (V c main_v15 : S50000x128.Idx → EReal) (ix2 r l) := by
  obtain ⟨-, -, e0, e1, -⟩ := blockIndex t
  unfold iblk0
  rw [View.read_apply]
  show V c main_v15 _ = V c main_v15 _
  congr 1
  funext a
  apply Fin.ext
  match a with
  | ⟨0, _⟩ => show win0_1.index t (0 : Fin 2) * 5000 + 1 * p.val = r.val; rw [e0, hr]; omega
  | ⟨1, _⟩ => show win0_1.index t (1 : Fin 2) * 128 + 1 * l.val = l.val; rw [e1]; omega

/-- Window 2's block at every point is the whole first weight matrix. -/
theorem w1Block_apply (c : Dev nD) (t : Fin cfg0.N) (l k : Fin 128) :
    (iblk0 V c 2 t : FVec Ideal S128x128 .bf16) (ix2 l k) = (V c main_v16 : S128x128.Idx → EReal) (ix2 l k) := by
  obtain ⟨-, -, -, -, e0, e1, -⟩ := blockIndex t
  unfold iblk0
  rw [View.read_apply]
  show V c main_v16 _ = V c main_v16 _
  congr 1
  funext a
  apply Fin.ext
  match a with
  | ⟨0, _⟩ => show win0_2.index t (0 : Fin 2) * 128 + 1 * l.val = l.val; rw [e0]; omega
  | ⟨1, _⟩ => show win0_2.index t (1 : Fin 2) * 128 + 1 * k.val = k.val; rw [e1]; omega

/-- Window 3's block at every point is the whole first bias. -/
theorem b1Block_apply (c : Dev nD) (t : Fin cfg0.N) (k : Fin 128) :
    (iblk0 V c 3 t : FVec Ideal S128 .f32) (ix1 k) = (V c main_arg4 : S128.Idx → EReal) (ix1 k) := by
  obtain ⟨-, -, -, -, -, -, e0, -⟩ := blockIndex t
  unfold iblk0
  rw [View.read_apply]
  show V c main_arg4 _ = V c main_arg4 _
  congr 1
  funext a
  apply Fin.ext
  match a with
  | ⟨0, _⟩ => show win0_3.index t (0 : Fin 1) * 128 + 1 * k.val = k.val; rw [e0]; omega

/-- Window 4's block at every point is the whole second weight matrix. -/
theorem w2Block_apply (c : Dev nD) (t : Fin cfg0.N) (l k : Fin 128) :
    (iblk0 V c 4 t : FVec Ideal S128x128 .bf16) (ix2 l k) = (V c main_v17 : S128x128.Idx → EReal) (ix2 l k) := by
  obtain ⟨-, -, -, -, -, -, -, e0, e1, -⟩ := blockIndex t
  unfold iblk0
  rw [View.read_apply]
  show V c main_v17 _ = V c main_v17 _
  congr 1
  funext a
  apply Fin.ext
  match a with
  | ⟨0, _⟩ => show win0_4.index t (0 : Fin 2) * 128 + 1 * l.val = l.val; rw [e0]; omega
  | ⟨1, _⟩ => show win0_4.index t (1 : Fin 2) * 128 + 1 * k.val = k.val; rw [e1]; omega

/-- Window 5's block at every point is the whole second bias. -/
theorem b2Block_apply (c : Dev nD) (t : Fin cfg0.N) (k : Fin 128) :
    (iblk0 V c 5 t : FVec Ideal S128 .f32) (ix1 k) = (V c main_arg6 : S128.Idx → EReal) (ix1 k) := by
  obtain ⟨-, -, -, -, -, -, -, -, -, e0, -⟩ := blockIndex t
  unfold iblk0
  rw [View.read_apply]
  show V c main_arg6 _ = V c main_arg6 _
  congr 1
  funext a
  apply Fin.ext
  match a with
  | ⟨0, _⟩ => show win0_5.index t (0 : Fin 1) * 128 + 1 * k.val = k.val; rw [e0]; omega

/-- The node update over a block whose entries are those of the arrays at row r is the node update at row r. -/
theorem blockNode_congr (x a : FVec Ideal S5000x128 .f32) (w1 : FVec Ideal S128x128 .bf16) (b1 : FVec Ideal S128 .f32)
    (w2 : FVec Ideal S128x128 .bf16) (b2 : FVec Ideal S128 .f32)
    (X A : S50000x128.Idx → EReal) (W1 : S128x128.Idx → EReal) (B1 : S128.Idx → EReal) (W2 : S128x128.Idx → EReal)
    (B2 : S128.Idx → EReal) (p : Fin 5000) (q : Fin 128) (r : Fin 50000)
    (hx : ∀ l, x (ix2 p l) = X (ix2 r l)) (ha : ∀ l, a (ix2 p l) = A (ix2 r l))
    (hw1 : ∀ l k, w1 (ix2 l k) = W1 (ix2 l k)) (hb1 : ∀ k, b1 (ix1 k) = B1 (ix1 k))
    (hw2 : ∀ l k, w2 (ix2 l k) = W2 (ix2 l k)) (hb2 : ∀ k, b2 (ix1 k) = B2 (ix1 k)) :
    blockNode x a w1 b1 w2 b2 p q = Cert.GinBn.node X A W1 B1 W2 B2 r q := by
  unfold blockNode Cert.GinBn.node
  simp only [hx, ha, hw1, hb1, hw2, hb2]

/-- The node update over point t's blocks, at row p of the block, is the node update of the arrays at row 5000·t + p. -/
theorem blockNode_eq (c : Dev nD) (t : Fin cfg0.N) (p : Fin 5000) (q : Fin 128) (r : Fin 50000)
    (hr : r.val = 5000 * t.val + p.val) :
    blockNode (iblk0 V c 0 t) (iblk0 V c 1 t) (iblk0 V c 2 t) (iblk0 V c 3 t) (iblk0 V c 4 t) (iblk0 V c 5 t) p q
      = Cert.GinBn.node (V c main_arg0) (V c main_v15) (V c main_v16) (V c main_arg4) (V c main_v17) (V c main_arg6) r q :=
  blockNode_congr _ _ _ _ _ _ _ _ _ _ _ _ p q r (fun l => xBlock_apply V c t p l r hr) (fun l => aBlock_apply V c t p l r hr)
    (fun l k => w1Block_apply V c t l k) (fun k => b1Block_apply V c t k) (fun l k => w2Block_apply V c t l k)
    (fun k => b2Block_apply V c t k)

/-- What point t writes back to the output array is block t of the node update of the arrays the region finds. -/
theorem flushed6_eq (c : Dev nD) (t : Fin cfg0.N) :
    (dat0 (F := Ideal) V c).flushed 6 t = ((cfg0.win 6).blk t).view.read (Elt Ideal) (nodeArr V c) := by
  show (cfg0.win 6).cut (grid0.coords t) ((dat0 (F := Ideal) V c).after 6 t) = _
  rw [after0_6]
  unfold out0_6
  rw [View.canon_unit_zero zeroOff2]
  simp only [View.ld_unit_zero (S := S5000x128) zeroOff2, View.ld_unit_zero (S := S128x128) zeroOff2, View.ld_unit_zero (S := S128) zeroOff1]
  obtain ⟨-, -, -, -, -, -, -, -, -, -, e0, e1, -⟩ := blockIndex t
  funext j
  show k0_pay1 (iblk0 V c 0 t) (iblk0 V c 1 t) (iblk0 V c 2 t) (iblk0 V c 3 t) (iblk0 V c 4 t) (iblk0 V c 5 t) j
    = nodeArr V c (((cfg0.win 6).blk t).view.emb j)
  obtain ⟨p, q, rfl⟩ : ∃ (p : Fin 5000) (q : Fin 128), j = ix2 p q := ⟨j 0, j 1, eq_ix2 j⟩
  refine (pay1_apply (iblk0 V c 0 t) (iblk0 V c 1 t) (iblk0 V c 2 t) (iblk0 V c 3 t) (iblk0 V c 4 t) (iblk0 V c 5 t) p q).trans ?_
  unfold nodeArr
  have hq : (⟨((((cfg0.win 6).blk t).view.emb (ix2 p q)) 1).val, idx2_lt1 _⟩ : Fin 128) = q :=
    Fin.ext (by show win0_6.index t (1 : Fin 2) * 128 + 1 * q.val = q.val; rw [e1]; omega)
  rw [hq]
  exact blockNode_eq V c t p q _ (by show win0_6.index t (0 : Fin 2) * 5000 + 1 * p.val = 5000 * t.val + p.val; rw [e0]; omega)

/-- An index of the output array is in point t's block iff its row is one of that block's 5000. -/
theorem mem_blk6 (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v18_0).slice (win0_6.rect t)).set ↔ _
  rw [View.set_slice_whole, Rect.mem_set_unit]
  exact Iff.rfl

/-- Every row lies in the block of the point its quotient by 5000 names. -/
theorem cover6 (i : S50000x128.Idx) : ∃ t : Fin cfg0.N, (cfg0.win 6).flush t = true ∧ i ∈ ((cfg0.win 6).blk t).view.set := by
  have hi0 : (i 0).val < 50000 := idx2_lt0 i
  have hi1 : (i 1).val < 128 := idx2_lt1 i
  refine ⟨⟨(i 0).val / 5000, lt_of_lt_of_eq (by omega) N_0.symm⟩, flush0_6 _, ?_⟩
  rw [mem_blk6]
  obtain ⟨-, -, -, -, -, -, -, -, -, -, e0, e1, -⟩ := blockIndex ⟨(i 0).val / 5000, lt_of_lt_of_eq (by omega) N_0.symm⟩
  intro a
  match a with
  | ⟨0, _⟩ =>
    show win0_6.index _ (0 : Fin 2) * 5000 ≤ (i 0).val ∧ (i 0).val < win0_6.index _ (0 : Fin 2) * 5000 + 5000
    rw [e0]; show (i 0).val / 5000 * 5000 ≤ (i 0).val ∧ (i 0).val < (i 0).val / 5000 * 5000 + 5000; omega
  | ⟨1, _⟩ =>
    show win0_6.index _ (1 : Fin 2) * 128 ≤ (i 1).val ∧ (i 1).val < win0_6.index _ (1 : Fin 2) * 128 + 128
    rw [e1]; omega

/-- The output array after the region is the node update of the arrays the region finds. -/
theorem final6 (c : Dev nD) : (dat0 (F := Ideal) V c).arrAt 6 cfg0.N = nodeArr V c :=
  (dat0 (F := Ideal) V c).arrAt_eq_of_cover 6 (nodeArr V c) (fun t _ => flushed6_eq V c t) cover6

/-- THE OUTPUT ARRAY after the region, entry by entry: the node update of the arrays the region finds. -/
theorem node_out (c : Dev nD) (p : Fin 50000) (q : Fin 128) :
    ((dat0 (F := Ideal) V c).arrAt 6 cfg0.N : S50000x128.Idx → EReal) (ix2 p q)
      = Cert.GinBn.node (V c main_arg0) (V c main_v15) (V c main_v16) (V c main_arg4) (V c main_v17) (V c main_arg6) p q := by
  rw [final6]
  rfl

/-- The column sums of the node update over each block of 5000 rows, as one function of the [10,1,128] index. -/
def colSumArr (c : Dev nD) : S10x1x128.Idx → EReal := fun i => ∑ r : Fin 5000,
    Cert.GinBn.node (V c main_arg0) (V c main_v15) (V c main_v16) (V c main_arg4) (V c main_v17) (V c main_arg6)
      ⟨5000 * (i 0).val + r.val, by have h : (i 0).val < 10 := (i 0).isLt; omega⟩ ⟨(i 2).val, (i 2).isLt⟩

/-- What point t writes back to window 7's array is block t of that function. -/
theorem flushed7_eq (c : Dev nD) (t : Fin cfg0.N) :
    (dat0 (F := Ideal) V c).flushed 7 t = ((cfg0.win 7).blk t).view.read (Elt Ideal) (colSumArr V c) := by
  show (cfg0.win 7).cut (grid0.coords t) ((dat0 (F := Ideal) V c).after 7 t) = _
  rw [after0_7]
  unfold out0_7
  rw [View.canon_unit_zero zeroOff3]
  simp only [View.ld_unit_zero (S := S5000x128) zeroOff2, View.ld_unit_zero (S := S128x128) zeroOff2, View.ld_unit_zero (S := S128) zeroOff1]
  obtain ⟨-, -, -, -, -, -, -, -, -, -, -, -, e0, e1, e2, -⟩ := blockIndex t
  funext j
  show k0_pay2 (iblk0 V c 0 t) (iblk0 V c 1 t) (iblk0 V c 2 t) (iblk0 V c 3 t) (iblk0 V c 4 t) (iblk0 V c 5 t) j
    = colSumArr V c (((cfg0.win 7).blk t).view.emb j)
  obtain ⟨u, w, q, rfl⟩ : ∃ (u w : Fin 1) (q : Fin 128), j = ix3 u w q := ⟨j 0, j 1, j 2, eq_ix3 j⟩
  refine (pay2_apply (iblk0 V c 0 t) (iblk0 V c 1 t) (iblk0 V c 2 t) (iblk0 V c 3 t) (iblk0 V c 4 t) (iblk0 V c 5 t) u w q).trans ?_
  unfold colSumArr
  refine Finset.sum_congr rfl fun r _ => ?_
  have hu : u.val = 0 := by omega
  have hq : (⟨((((cfg0.win 7).blk t).view.emb (ix3 u w q)) 2).val, ((((cfg0.win 7).blk t).view.emb (ix3 u w q)) 2).isLt⟩ : Fin 128) = q :=
    Fin.ext (by show win0_7.index t (2 : Fin 3) * 128 + 1 * q.val = q.val; rw [e2]; omega)
  rw [hq]
  exact blockNode_eq V c t r q _ (by show 5000 * (win0_7.index t (0 : Fin 3) * 1 + 1 * u.val) + r.val = 5000 * t.val + r.val; rw [e0]; omega)

/-- An index of window 7's array is in point t's block iff its leading coordinate is t. -/
theorem mem_blk7 (t : Fin cfg0.N) (i : S10x1x128.Idx) :
    i ∈ ((cfg0.win 7).blk t).view.set ↔ ∀ a : Fin 3, win0_7.index t a * S1x1x128.size a ≤ (i a).val
      ∧ (i a).val < win0_7.index t a * S1x1x128.size a + S1x1x128.size a := by
  show i ∈ ((View.whole main_v18_1).slice (win0_7.rect t)).set ↔ _
  rw [View.set_slice_whole, Rect.mem_set_unit]
  exact Iff.rfl

/-- Every index lies in the block of the point its leading coordinate names. -/
theorem cover7 (i : S10x1x128.Idx) : ∃ t : Fin cfg0.N, (cfg0.win 7).flush t = true ∧ i ∈ ((cfg0.win 7).blk t).view.set := by
  have hi0 : (i 0).val < 10 := (i 0).isLt
  have hi1 : (i 1).val < 1 := (i 1).isLt
  have hi2 : (i 2).val < 128 := (i 2).isLt
  refine ⟨⟨(i 0).val, lt_of_lt_of_eq hi0 N_0.symm⟩, flush0_7 _, ?_⟩
  rw [mem_blk7]
  obtain ⟨-, -, -, -, -, -, -, -, -, -, -, -, e0, e1, e2, -⟩ := blockIndex ⟨(i 0).val, lt_of_lt_of_eq hi0 N_0.symm⟩
  intro a
  match a with
  | ⟨0, _⟩ =>
    show win0_7.index _ (0 : Fin 3) * 1 ≤ (i 0).val ∧ (i 0).val < win0_7.index _ (0 : Fin 3) * 1 + 1
    rw [e0]; show (i 0).val * 1 ≤ (i 0).val ∧ (i 0).val < (i 0).val * 1 + 1; omega
  | ⟨1, _⟩ =>
    show win0_7.index _ (1 : Fin 3) * 1 ≤ (i 1).val ∧ (i 1).val < win0_7.index _ (1 : Fin 3) * 1 + 1
    rw [e1]; omega
  | ⟨2, _⟩ =>
    show win0_7.index _ (2 : Fin 3) * 128 ≤ (i 2).val ∧ (i 2).val < win0_7.index _ (2 : Fin 3) * 128 + 128
    rw [e2]; omega

/-- Window 7's array after the region. -/
theorem final7 (c : Dev nD) : (dat0 (F := Ideal) V c).arrAt 7 cfg0.N = colSumArr V c :=
  (dat0 (F := Ideal) V c).arrAt_eq_of_cover 7 (colSumArr V c) (fun t _ => flushed7_eq V c t) cover7

/-- The column sums of the squared node update over each block of 5000 rows, as one function of the [10,1,128] index. -/
def colSumSqArr (c : Dev nD) : S10x1x128.Idx → EReal := fun i => ∑ r : Fin 5000,
    Cert.GinBn.node (V c main_arg0) (V c main_v15) (V c main_v16) (V c main_arg4) (V c main_v17) (V c main_arg6)
      ⟨5000 * (i 0).val + r.val, by have h : (i 0).val < 10 := (i 0).isLt; omega⟩ ⟨(i 2).val, (i 2).isLt⟩
    * Cert.GinBn.node (V c main_arg0) (V c main_v15) (V c main_v16) (V c main_arg4) (V c main_v17) (V c main_arg6)
      ⟨5000 * (i 0).val + r.val, by have h : (i 0).val < 10 := (i 0).isLt; omega⟩ ⟨(i 2).val, (i 2).isLt⟩

/-- What point t writes back to window 8's array is block t of that function. -/
theorem flushed8_eq (c : Dev nD) (t : Fin cfg0.N) :
    (dat0 (F := Ideal) V c).flushed 8 t = ((cfg0.win 8).blk t).view.read (Elt Ideal) (colSumSqArr V c) := by
  show (cfg0.win 8).cut (grid0.coords t) ((dat0 (F := Ideal) V c).after 8 t) = _
  rw [after0_8]
  unfold out0_8
  rw [View.canon_unit_zero zeroOff3]
  simp only [View.ld_unit_zero (S := S5000x128) zeroOff2, View.ld_unit_zero (S := S128x128) zeroOff2, View.ld_unit_zero (S := S128) zeroOff1]
  obtain ⟨-, -, -, -, -, -, -, -, -, -, -, -, -, -, -, e0, e1, e2⟩ := blockIndex t
  funext j
  show k0_pay3 (iblk0 V c 0 t) (iblk0 V c 1 t) (iblk0 V c 2 t) (iblk0 V c 3 t) (iblk0 V c 4 t) (iblk0 V c 5 t) j
    = colSumSqArr V c (((cfg0.win 8).blk t).view.emb j)
  obtain ⟨u, w, q, rfl⟩ : ∃ (u w : Fin 1) (q : Fin 128), j = ix3 u w q := ⟨j 0, j 1, j 2, eq_ix3 j⟩
  refine (pay3_apply (iblk0 V c 0 t) (iblk0 V c 1 t) (iblk0 V c 2 t) (iblk0 V c 3 t) (iblk0 V c 4 t) (iblk0 V c 5 t) u w q).trans ?_
  unfold colSumSqArr
  refine Finset.sum_congr rfl fun r _ => ?_
  have hu : u.val = 0 := by omega
  have hq : (⟨((((cfg0.win 8).blk t).view.emb (ix3 u w q)) 2).val, ((((cfg0.win 8).blk t).view.emb (ix3 u w q)) 2).isLt⟩ : Fin 128) = q :=
    Fin.ext (by show win0_8.index t (2 : Fin 3) * 128 + 1 * q.val = q.val; rw [e2]; omega)
  rw [hq]
  refine congrArg₂ (fun y z : EReal => y * z) ?_ ?_ <;>
    exact blockNode_eq V c t r q _ (by show 5000 * (win0_8.index t (0 : Fin 3) * 1 + 1 * u.val) + r.val = 5000 * t.val + r.val; rw [e0]; omega)

/-- An index of window 8's array is in point t's block iff its leading coordinate is t. -/
theorem mem_blk8 (t : Fin cfg0.N) (i : S10x1x128.Idx) :
    i ∈ ((cfg0.win 8).blk t).view.set ↔ ∀ a : Fin 3, win0_8.index t a * S1x1x128.size a ≤ (i a).val
      ∧ (i a).val < win0_8.index t a * S1x1x128.size a + S1x1x128.size a := by
  show i ∈ ((View.whole main_v18_2).slice (win0_8.rect t)).set ↔ _
  rw [View.set_slice_whole, Rect.mem_set_unit]
  exact Iff.rfl

/-- Every index lies in the block of the point its leading coordinate names. -/
theorem cover8 (i : S10x1x128.Idx) : ∃ t : Fin cfg0.N, (cfg0.win 8).flush t = true ∧ i ∈ ((cfg0.win 8).blk t).view.set := by
  have hi0 : (i 0).val < 10 := (i 0).isLt
  have hi1 : (i 1).val < 1 := (i 1).isLt
  have hi2 : (i 2).val < 128 := (i 2).isLt
  refine ⟨⟨(i 0).val, lt_of_lt_of_eq hi0 N_0.symm⟩, flush0_8 _, ?_⟩
  rw [mem_blk8]
  obtain ⟨-, -, -, -, -, -, -, -, -, -, -, -, -, -, -, e0, e1, e2⟩ := blockIndex ⟨(i 0).val, lt_of_lt_of_eq hi0 N_0.symm⟩
  intro a
  match a with
  | ⟨0, _⟩ =>
    show win0_8.index _ (0 : Fin 3) * 1 ≤ (i 0).val ∧ (i 0).val < win0_8.index _ (0 : Fin 3) * 1 + 1
    rw [e0]; show (i 0).val * 1 ≤ (i 0).val ∧ (i 0).val < (i 0).val * 1 + 1; omega
  | ⟨1, _⟩ =>
    show win0_8.index _ (1 : Fin 3) * 1 ≤ (i 1).val ∧ (i 1).val < win0_8.index _ (1 : Fin 3) * 1 + 1
    rw [e1]; omega
  | ⟨2, _⟩ =>
    show win0_8.index _ (2 : Fin 3) * 128 ≤ (i 2).val ∧ (i 2).val < win0_8.index _ (2 : Fin 3) * 128 + 128
    rw [e2]; omega

/-- Window 8's array after the region. -/
theorem final8 (c : Dev nD) : (dat0 (F := Ideal) V c).arrAt 8 cfg0.N = colSumSqArr V c :=
  (dat0 (F := Ideal) V c).arrAt_eq_of_cover 8 (colSumSqArr V c) (fun t _ => flushed8_eq V c t) cover8

/-- THE COLUMN SUMS after the region: entry (t, 0, q) is the sum of the node update over rows 5000·t … 5000·t + 4999. -/
theorem sum_out (c : Dev nD) (t : Fin 10) (q : Fin 128) :
    ((dat0 (F := Ideal) V c).arrAt 7 cfg0.N : S10x1x128.Idx → EReal) (ix3 t (0 : Fin 1) q)
      = ∑ r : Fin 5000, Cert.GinBn.node (V c main_arg0) (V c main_v15) (V c main_v16) (V c main_arg4) (V c main_v17) (V c main_arg6)
          ⟨5000 * t.val + r.val, by omega⟩ q := by
  rw [final7]
  rfl

/-- THE COLUMN SUMS OF SQUARES after the region: entry (t, 0, q) is the sum of the squared node update over the same rows. -/
theorem sumsq_out (c : Dev nD) (t : Fin 10) (q : Fin 128) :
    ((dat0 (F := Ideal) V c).arrAt 8 cfg0.N : S10x1x128.Idx → EReal) (ix3 t (0 : Fin 1) q)
      = ∑ r : Fin 5000, Cert.GinBn.node (V c main_arg0) (V c main_v15) (V c main_v16) (V c main_arg4) (V c main_v17) (V c main_arg6)
            ⟨5000 * t.val + r.val, by omega⟩ q
          * Cert.GinBn.node (V c main_arg0) (V c main_v15) (V c main_v16) (V c main_arg4) (V c main_v17) (V c main_arg6)
            ⟨5000 * t.val + r.val, by omega⟩ q := by
  rw [final8]
  rfl

end Cert.KernelIdeal.NodeRegion
end
-- ==== Proof.BnRegion.lean ====
/-
  The second region of the kernel: the affine normalisation.

  The region runs over ten grid points. At point t it is handed rows 5000·t … 5000·t + 4999 of a [50000, 128] array h
  and the whole of two vectors of 128 entries, a scale s and a shift b, and it writes back the same rows of its output.
  The body's one stored value is, entry by entry, h(p, q) · s(q) + b(q): the two vectors are viewed as one row of 128
  and that row is repeated down the 5000 rows of the block. The ten blocks tile the fifty thousand rows (row r lies in
  block r / 5000), so after the region the output array is the affine map of the arrays the region found, at every
  index. Everything is stated at the contents V of the buffers when the region is entered, a variable.
-/
import proofs.«182163_j7275674600087_2_alg».proof.Proof.Gen.KernelIdeal.Frame
import Idealize.ShloMosaic.Lib.Pipeline.Value
import Idealize.ShloMosaic.Lib.ValueIdx
import Idealize.ShloMosaic.Lib.ValueLayout

noncomputable section

namespace Cert.KernelIdeal.BnRegion

open Cert.KernelIdeal Cert.KernelIdeal.Gen Idealize.ShloMosaic Idealize.ShloMosaic.ValueIdx Idealize.ShloMosaic.TcCoe
open Idealize.ShloMosaic.Pipeline (Dat)

variable (V : (c : Dev nD) → (b : Ref sig .tc) → Buf (Elt Ideal) ((c : Thread nD τ).loc b))

/-- The zero offsets of a rank-2 access, spelt as the constant function. -/
theorem zero2 : (![0, 0] : Fin 2 → Nat) = fun _ => 0 := funext fun a => by fin_cases a <;> rfl
/-- The zero offset of a rank-1 access, spelt as the constant function. -/
theorem zero1 : (![0] : Fin 1 → Nat) = fun _ => 0 := funext fun a => by fin_cases a <;> rfl

/-- A vector of 128 entries viewed as one row of 128 reads, at (0, q), the entry q. -/
theorem row_apply (v : FVec Ideal S128 .f32) (q : Fin 128) :
    shapeCast S1x128 v shapeCasts_S128_S1x128 (ix2 (0 : Fin 1) q) = v (ix1 q) := by
  refine (shapeCast_addUnit_apply ![128] v shapeCasts_S128_S1x128 (ix2 (0 : Fin 1) q)).trans ?_
  refine congrArg v (funext fun a => ?_)
  match a with
  | ⟨0, _⟩ => rfl

/-- The body's stored value at row p, column q of the block. -/
theorem pay_apply (x0 : Vec Ideal S5000x128 .f32) (x1 x2 : Vec Ideal S128 .f32) (p : Fin 5000) (q : Fin 128) :
    (k1_pay1 x0 x1 x2 : S5000x128.Idx → EReal) (ix2 p q)
      = (x0 : S5000x128.Idx → EReal) (ix2 p q) * (x1 : S128.Idx → EReal) (ix1 q) + (x2 : S128.Idx → EReal) (ix1 q) := by
  unfold k1_pay1
  rw [addf_apply, mulf_apply, broadcastTo_1b_ab_apply, broadcastTo_1b_ab_apply, row_apply, row_apply,
    shapeCast_self, shapeCast_self, shapeCast_self]

/-- Every entry of an array h scaled and shifted by its column's entries of s and b. -/
def affine (h : S50000x128.Idx → EReal) (s b : S128.Idx → EReal) : S50000x128.Idx → EReal :=
  fun i => h i * s (ix1 (n := 128) (i 1)) + b (ix1 (n := 128) (i 1))

/-- Where each window's block sits at grid point t: the two row-blocked windows at block row t, the two
    vectors whole. -/
theorem idx_facts : ∀ t : Fin cfg1.N, win1_0.index t (0 : Fin 2) = t.val ∧ win1_0.index t (1 : Fin 2) = 0
    ∧ win1_1.index t (0 : Fin 1) = 0 ∧ win1_2.index t (0 : Fin 1) = 0
    ∧ win1_3.index t (0 : Fin 2) = t.val ∧ win1_3.index t (1 : Fin 2) = 0 :=
  (by decide +kernel : ∀ t : Fin grid1.N, _)

/-- What grid point t writes back is block t of the affine map of the arrays the region finds: the body's stored
    value at (p, q) of the block is the input block's entry there times the scale's entry q plus the shift's entry q;
    the input block's entry (p, q) is the array's entry at the same place the output block's entry (p, q) goes to
    (row 5000·t + p, column q), and the two vectors are read whole. -/
theorem flushed_eq (c : Dev nD) (t : Fin cfg1.N) :
    (dat1 V c).flushed 3 t = ((cfg1.win 3).blk t).view.read (Elt Ideal)
      (affine (V c main_v18_0) (V c main_v30) (V c main_v32)) := by
  show (cfg1.win 3).cut (grid1.coords t) ((dat1 V c).after 3 t) = _
  rw [after1_3]
  unfold out1_3
  rw [View.canon_unit_zero zero2]
  simp only [View.ld_unit_zero (S := S5000x128) zero2, View.ld_unit_zero (S := S128) zero1]
  obtain ⟨e0, e1, e2, e3, e4, e5⟩ := idx_facts t
  funext j
  obtain ⟨p, q, rfl⟩ : ∃ (p : Fin 5000) (q : Fin 128), j = ix2 p q := ⟨j 0, j 1, eq_ix2 (n0 := 5000) (n1 := 128) j⟩
  show k1_pay1 (iblk1 V c 0 t) (iblk1 V c 1 t) (iblk1 V c 2 t) (ix2 p q)
      = affine (V c main_v18_0) (V c main_v30) (V c main_v32) (((cfg1.win 3).blk t).view.emb (ix2 p q))
  refine (pay_apply (iblk1 V c 0 t) (iblk1 V c 1 t) (iblk1 V c 2 t) p q).trans ?_
  have r0 : (iblk1 V c 0 t : S5000x128.Idx → EReal) (ix2 p q)
      = (V c main_v18_0 : S50000x128.Idx → EReal) (((cfg1.win 3).blk t).view.emb (ix2 p q)) := by
    show (V c main_v18_0 : S50000x128.Idx → EReal) (((cfg1.win 0).blk t).view.emb (ix2 p q)) = _
    refine congrArg _ (funext fun a => Fin.ext ?_)
    match a with
    | ⟨0, _⟩ => show win1_0.index t (0 : Fin 2) * 5000 + 1 * p.val = win1_3.index t (0 : Fin 2) * 5000 + 1 * p.val; omega
    | ⟨1, _⟩ => show win1_0.index t (1 : Fin 2) * 128 + 1 * q.val = win1_3.index t (1 : Fin 2) * 128 + 1 * q.val; omega
  have r1 : (iblk1 V c 1 t : S128.Idx → EReal) (ix1 q) = (V c main_v30 : S128.Idx → EReal) (ix1 q) := by
    show (V c main_v30 : S128.Idx → EReal) (((cfg1.win 1).blk t).view.emb (ix1 q)) = _
    refine congrArg _ (funext fun a => Fin.ext ?_)
    match a with
    | ⟨0, _⟩ => show win1_1.index t (0 : Fin 1) * 128 + 1 * q.val = q.val; omega
  have r2 : (iblk1 V c 2 t : S128.Idx → EReal) (ix1 q) = (V c main_v32 : S128.Idx → EReal) (ix1 q) := by
    show (V c main_v32 : S128.Idx → EReal) (((cfg1.win 2).blk t).view.emb (ix1 q)) = _
    refine congrArg _ (funext fun a => Fin.ext ?_)
    match a with
    | ⟨0, _⟩ => show win1_2.index t (0 : Fin 1) * 128 + 1 * q.val = q.val; omega
  have hq : ix1 (n := 128) ((((cfg1.win 3).blk t).view.emb (ix2 p q)) 1) = ix1 q :=
    congrArg (ix1 (n := 128)) (Fin.ext (show win1_3.index t (1 : Fin 2) * 128 + 1 * q.val = q.val by omega))
  unfold affine
  rw [r0, r1, r2, hq]

/-- An index of the array is in point t's block iff each coordinate is in the block's range on its axis. -/
theorem mem_blk (t : Fin cfg1.N) (i : S50000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v33).slice (win1_3.rect t)).set ↔ _
  rw [View.set_slice_whole, Rect.mem_set_unit]
  exact Iff.rfl

/-- The ten blocks cover the array: row r lies in the block of point r / 5000. -/
theorem cover (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ : ∃ t : Fin cfg1.N, t.val = (i 0).val / 5000 :=
    ⟨⟨(i 0).val / 5000, by have hN : grid1.N = 10 := N_1; show _ < grid1.N; omega⟩, rfl⟩
  obtain ⟨e0, e1, e2, e3, e4, e5⟩ := idx_facts t
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- The output array after the region: the affine map of the arrays the region finds. -/
theorem bn_arr (c : Dev nD) :
    (dat1 V c).arrAt 3 cfg1.N = affine (V c main_v18_0) (V c main_v30) (V c main_v32) :=
  (dat1 V c).arrAt_eq_of_cover 3 (affine (V c main_v18_0) (V c main_v30) (V c main_v32))
    (fun t _ => flushed_eq V c t) cover

/-- The affine map at row p, column q. -/
theorem affine_apply (h : S50000x128.Idx → EReal) (s b : S128.Idx → EReal) (p : Fin 50000) (q : Fin 128) :
    affine h s b (ix2 p q) = h (ix2 p q) * s (ix1 q) + b (ix1 q) := rfl

/-- The output array after the region at row p, column q: the input's entry there times the scale's entry q plus
    the shift's entry q. The three arrays the region finds are named H, S and B, as functions to the extended reals,
    by the equations hH, hS and hB (each may be given as the reflexivity). -/
theorem bn_out (c : Dev nD) (H : S50000x128.Idx → EReal) (S B : S128.Idx → EReal)
    (hH : V c main_v18_0 = H) (hS : V c main_v30 = S) (hB : V c main_v32 = B) (p : Fin 50000) (q : Fin 128) :
    ((dat1 (F := Ideal) V c).arrAt 3 cfg1.N : S50000x128.Idx → EReal) (ix2 p q)
      = H (ix2 p q) * S (ix1 q) + B (ix1 q) := by
  subst hH hS hB
  exact (congrFun (bn_arr V c) (ix2 p q)).trans rfl

end Cert.KernelIdeal.BnRegion

end
-- ==== Proof.KernelValue.lean ====
/-
  The idealized kernel's result, entry by entry.

  The result array is what the normalisation region leaves: at (p, q), the node region's output at (p, q) times the
  scale at q plus the shift at q. The node region's output is the node update of the launched arrays and of their
  aggregate; the scale and the shift are computed from the node region's per-block partial sums, which are block
  sums of that same node update and of its square. So the result at (p, q) is the folded normalisation of column q of
  the node update, at row p, with the launched weight and bias.
-/
import proofs.«182163_j7275674600087_2_alg».proof.Proof.Spec
import proofs.«182163_j7275674600087_2_alg».proof.Proof.Boundary
import proofs.«182163_j7275674600087_2_alg».proof.Proof.Fold
import proofs.«182163_j7275674600087_2_alg».proof.Proof.Stats
import proofs.«182163_j7275674600087_2_alg».proof.Proof.NodeRegion
import proofs.«182163_j7275674600087_2_alg».proof.Proof.BnRegion

set_option maxRecDepth 16384

noncomputable section

namespace Cert.KernelIdeal.Value

open Idealize.ShloMosaic Idealize.ShloMosaic.TcCoe Idealize.ShloMosaic.ValueIdx Idealize.SL.Sem
open Cert.KernelIdeal Cert.KernelIdeal.Gen Cert.GinBn

variable (m : (ℓ : Loc nD τ sig) → Buf (Elt Ideal) ℓ) (ρ : Dev nD → PrngReg)

/-- The node update of the launched arrays and of their aggregate. -/
def nodeOf (c : Dev nD) : Fin 50000 → Fin 128 → EReal :=
  node (m ((c : Thread nD τ).loc main_arg0))
    (Boundary.aggrK (m ((c : Thread nD τ).loc main_arg0)) (m ((c : Thread nD τ).loc main_arg1)) (m ((c : Thread nD τ).loc main_arg2)))
    (m ((c : Thread nD τ).loc main_arg3)) (m ((c : Thread nD τ).loc main_arg4))
    (m ((c : Thread nD τ).loc main_arg5)) (m ((c : Thread nD τ).loc main_arg6))

/-! ## What the node region finds -/

theorem entry_x (c : Dev nD) : V3 m ρ c main_arg0 = m ((c : Thread nD τ).loc main_arg0) := Boundary.x_of (W0 m ρ c)
theorem entry_aggr (c : Dev nD) : V3 m ρ c main_v15
    = Boundary.aggrK (m ((c : Thread nD τ).loc main_arg0)) (m ((c : Thread nD τ).loc main_arg1)) (m ((c : Thread nD τ).loc main_arg2)) :=
  Boundary.aggr_of (W0 m ρ c)
theorem entry_w1 (c : Dev nD) : (V3 m ρ c main_v16 : S128x128.Idx → EReal) = m ((c : Thread nD τ).loc main_arg3) :=
  Boundary.w1_of (W0 m ρ c)
theorem entry_b1 (c : Dev nD) : V3 m ρ c main_arg4 = m ((c : Thread nD τ).loc main_arg4) := Boundary.b1_of (W0 m ρ c)
theorem entry_w2 (c : Dev nD) : (V3 m ρ c main_v17 : S128x128.Idx → EReal) = m ((c : Thread nD τ).loc main_arg5) :=
  Boundary.w2_of (W0 m ρ c)
theorem entry_b2 (c : Dev nD) : V3 m ρ c main_arg6 = m ((c : Thread nD τ).loc main_arg6) := Boundary.b2_of (W0 m ρ c)

/-- The node update the node region computes from what it finds is the node update of the launched arrays. -/
theorem node_entry (c : Dev nD) :
    node (V3 m ρ c main_arg0) (V3 m ρ c main_v15) (V3 m ρ c main_v16) (V3 m ρ c main_arg4) (V3 m ρ c main_v17) (V3 m ρ c main_arg6)
      = nodeOf m c := by
  unfold nodeOf
  rw [entry_x m ρ c, entry_aggr m ρ c, entry_w1 m ρ c, entry_b1 m ρ c, entry_w2 m ρ c, entry_b2 m ρ c]

/-! ## What the normalisation region finds -/

/-- The node region's output array passes the stretch between the regions unchanged. -/
theorem entry_h (c : Dev nD) : V5 m ρ c main_v18_0 = (dat0 (V3 m ρ) c).arrAt 6 cfg0.N :=
  (Fold.keep_h (W4 m ρ c)).trans (W4_arr m ρ c 6)

/-- The layer's weight and bias reach the stretch between the regions as launched. -/
theorem mid_w (c : Dev nD) : W4 m ρ c (Proc.devRef .tc main_arg7) = m ((c : Thread nD τ).loc main_arg7) :=
  (W4_of_ne m ρ c main_arg7 (by decide)).trans (Boundary.bnw_of (W0 m ρ c))
theorem mid_b (c : Dev nD) : W4 m ρ c (Proc.devRef .tc main_arg8) = m ((c : Thread nD τ).loc main_arg8) :=
  (W4_of_ne m ρ c main_arg8 (by decide)).trans (Boundary.bnb_of (W0 m ρ c))

theorem entry_scale (c : Dev nD) : V5 m ρ c main_v30
    = Fold.scaleK ((dat0 (V3 m ρ) c).arrAt 7 cfg0.N) ((dat0 (V3 m ρ) c).arrAt 8 cfg0.N) (m ((c : Thread nD τ).loc main_arg7)) := by
  refine (Fold.scale_of (W4 m ρ c)).trans ?_
  rw [mid_w m ρ c]
  exact congrArg₂ (fun a b => Fold.scaleK a b _) (W4_arr m ρ c 7) (W4_arr m ρ c 8)

theorem entry_shift (c : Dev nD) : V5 m ρ c main_v32
    = Fold.shiftK ((dat0 (V3 m ρ) c).arrAt 7 cfg0.N) ((dat0 (V3 m ρ) c).arrAt 8 cfg0.N) (m ((c : Thread nD τ).loc main_arg7))
        (m ((c : Thread nD τ).loc main_arg8)) := by
  refine (Fold.shift_of (W4 m ρ c)).trans ?_
  rw [mid_w m ρ c, mid_b m ρ c]
  exact congrArg₂ (fun a b => Fold.shiftK a b _ _) (W4_arr m ρ c 7) (W4_arr m ρ c 8)

/-! ## The result -/

/-- THE KERNEL'S RESULT AT (p, q): the folded normalisation of column q of the node update, at row p. -/
theorem result_apply (c : Dev nD) (p : Fin 50000) (q : Fin 128) :
    (W6 m ρ c (Proc.devRef .tc main_v33) : S50000x128.Idx → EReal) (ix2 p q)
      = bnFolded (fun p' => nodeOf m c p' q) ((m ((c : Thread nD τ).loc main_arg7) : S128.Idx → EReal) (ix1 q))
          ((m ((c : Thread nD τ).loc main_arg8) : S128.Idx → EReal) (ix1 q)) p := by
  have e : (W6 m ρ c (Proc.devRef .tc main_v33) : S50000x128.Idx → EReal) = (dat1 (V5 m ρ) c).arrAt 3 cfg1.N := W6_arr m ρ c 3
  rw [e, BnRegion.bn_out (V5 m ρ) c _ _ _ (entry_h m ρ c) (entry_scale m ρ c) (entry_shift m ρ c) p q,
    NodeRegion.node_out (V3 m ρ) c p q, node_entry m ρ c]
  refine Fold.folded_eq (fun p' => nodeOf m c p' q) _ _ _ _ q (fun t => ?_) (fun t => ?_) p
  · rw [NodeRegion.sum_out (V3 m ρ) c t q, node_entry m ρ c]
  · rw [NodeRegion.sumsq_out (V3 m ρ) c t q, node_entry m ρ c]

end Cert.KernelIdeal.Value

end
-- ==== Proof.LibScatterReal.lean ====
/-
  A reusable lemma: gathers and scatter-adds keep real entries real.

  Over the extended reals, an entry of a gather is by definition an entry of its operand, and an entry of a float
  scatter-add is by definition the operand's entry plus a finite sum of update entries (those whose result index is
  that entry). So if every entry of the operand (and of the updates) is a real number, so is every entry of the
  result — whatever the dimension numbers, the shapes and the index array, in range or not. Stated once for any
  shapes, the lemmas keep a proof about a large scatter from ever comparing terms over its index types.
-/
import Idealize.ShloMosaic.PureOps.Ideal
import proofs.«182163_j7275674600087_2_alg».proof.Proof.LibReal

noncomputable section

namespace Cert.Lib.IsR

open Idealize.ShloMosaic

/-- An entry of a gather of an array of real numbers is a real number. -/
theorem gather_isR {s si t : Shape} (d : GatherDims s si t) {w : Nat} (x : s.Idx → EReal) (idx : IVec si w)
    (hx : ∀ i, IsR (x i)) (j : t.Idx) : IsR (Host.gather d x idx j) := by
  unfold Host.gather
  exact hx _

/-- An entry of a float scatter-add of real updates into an array of real numbers is a real number. -/
theorem scatterAdd_isR {s si su : Shape} (d : ScatterDims s si su) {w : Nat} (x : FVec Ideal s .f32) (idx : IVec si w)
    (upd : FVec Ideal su .f32) (hx : ∀ i, IsR (x i)) (hu : ∀ j, IsR (upd j)) (i : s.Idx) :
    IsR (Host.scatterAdd d x idx upd i) := by
  show IsR (Ideal.hostScatterAdd d x idx upd i)
  unfold Ideal.hostScatterAdd
  exact add (hx i) (sum _ _ fun j _ => hu j)

end Cert.Lib.IsR

end
-- ==== Proof.AggrReal.lean ====
/-
  The aggregate of real inputs is real.

  An entry of the aggregate is the zero it was summed into plus a finite sum of messages; a message is the maximum of
  zero and a gathered entry of x plus an edge attribute; a gathered entry of x is an entry of x. Real numbers are closed
  under these operations.
-/
import proofs.«182163_j7275674600087_2_alg».proof.Proof.Boundary
import proofs.«182163_j7275674600087_2_alg».proof.Proof.LibReal
import proofs.«182163_j7275674600087_2_alg».proof.Proof.LibScatterReal
import Idealize.ShloMosaic.PureOps.Ideal.Laws
import Idealize.ShloMosaic.Lib.IdealHost

set_option maxRecDepth 16384

noncomputable section

namespace Cert.KernelIdeal.Boundary

open Idealize.ShloMosaic Idealize.ShloMosaic.ValueIdx Cert.KernelIdeal Cert.Lib.IsR

/-- A message is real when x and the edge attributes are. -/
theorem msgK_isR (X : FVec Ideal S50000x128 .f32) (EI : IVec S2x800000 32) (EA : FVec Ideal S800000x128 .f32)
    (hX : ∀ i, IsR (X i)) (hEA : ∀ i, IsR (EA i)) (j : S800000x128.Idx) : IsR (msgK X EI EA j) := by
  unfold msgK
  show IsR (Max.max (Host.gather _ X _ j + EA j) (broadcastInDim S800000x128 ![] Facts₀.bcast_S_S800000x128 (constant (F := Ideal) S_ .f32 0x00000000#32) j))
  rw [broadcastInDim_scalar_apply, constant_apply, Ideal.ofBits_zero_f32]
  refine Lib.IsR.max (Lib.IsR.add ?_ (hEA j)) Lib.IsR.zero
  exact Lib.IsR.gather_isR _ X _ hX j

/-- The aggregate is real when x and the edge attributes are. -/
theorem aggrK_isR (X : FVec Ideal S50000x128 .f32) (EI : IVec S2x800000 32) (EA : FVec Ideal S800000x128 .f32)
    (hX : ∀ i, IsR (X i)) (hEA : ∀ i, IsR (EA i)) (i : S50000x128.Idx) : IsR (aggrK X EI EA i) := by
  unfold aggrK
  refine Lib.IsR.scatterAdd_isR _ _ _ _ (fun i => ?_) (msgK_isR X EI EA hX hEA) i
  rw [broadcastInDim_scalar_apply, constant_apply, Ideal.ofBits_zero_f32]
  exact Lib.IsR.zero

end Cert.KernelIdeal.Boundary

end
-- ==== Proof.RefRun.lean ====
/-
  The reference program as a straight line, and its run.

  The reference's @main is seventy-eight tensor operations once its three outlined functions (the two rectifiers
  and the variance, which itself calls the selection) are written out at their call sites, each over the buffers
  that call names. Listed in order they are one straight line; every weakly fair execution of it terminates, and
  each buffer ends at the fold of the operations' results over the contents at launch.
-/
import proofs.«182163_j7275674600087_2_alg».proof.Proof.Gen.ReferenceIdeal
import Idealize.ShloMosaic.Lib.StableHlo.Run
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's seventy-eight operations in order, the calls written out: the rectifier of the messages (three), the
    rectifier of the hidden layer (three), the variance (nineteen, and the selection's three). -/
abbrev ops : List (HloOp τ sig (Elt F)) :=
  [
    StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.binary main_v10 main_arg2 main_v11 (addf : (⟨S800000x128, .f32⟩ : BufTy).Contents (Elt F) → (⟨S800000x128, .f32⟩ : BufTy).Contents (Elt F) → (⟨S800000x128, .f32⟩ : BufTy).Contents (Elt F)),
    StableHlo.TRef.nullary main_call0.cst (constant S_ .f32 0x00000000#32),
    StableHlo.TRef.unary main_call0.cst main_call0.v0 (broadcastInDim S800000x128 ![] bcast_S_S800000x128),
    StableHlo.TRef.binary (.of main_v11) main_call0.v0 main_call0.v1 maximumf,
    StableHlo.nullary main_cst (constant S_ .f32 0x00000000#32),
    StableHlo.unary main_cst main_v13 (broadcastInDim S50000x128 ![] bcast_S_S50000x128 : (⟨S_, .f32⟩ : BufTy).Contents (Elt F) → (⟨S50000x128, .f32⟩ : BufTy).Contents (Elt F)),
    StableHlo.unary main_v3 main_v14 (broadcastInDim S800000x1 ![0] bcast_S800000_S800000x1_0 : (⟨S800000, .i32⟩ : BufTy).Contents (Elt F) → (⟨S800000x1, .i32⟩ : BufTy).Contents (Elt F)),
    StableHlo.ternary main_v13 main_v14 main_v12 main_v15 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v15 main_v16 (addf : (⟨S50000x128, .f32⟩ : BufTy).Contents (Elt F) → (⟨S50000x128, .f32⟩ : BufTy).Contents (Elt F) → (⟨S50000x128, .f32⟩ : BufTy).Contents (Elt F)),
    StableHlo.binary main_v16 main_arg3 main_v17 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg4 main_v18 (broadcastInDim S1x128 ![1] bcast_S128_S1x128_1 : (⟨S128, .f32⟩ : BufTy).Contents (Elt F) → (⟨S1x128, .f32⟩ : BufTy).Contents (Elt F)),
    StableHlo.unary main_v18 main_v19 (broadcastInDim S50000x128 ![0, 1] bcast_S1x128_S50000x128_0_1 : (⟨S1x128, .f32⟩ : BufTy).Contents (Elt F) → (⟨S50000x128, .f32⟩ : BufTy).Contents (Elt F)),
    StableHlo.binary main_v17 main_v19 main_v20 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v20) main_call1.v0 main_call1.v1 maximumf,
    StableHlo.binary main_v21 main_arg5 main_v22 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg6 main_v23 (broadcastInDim S1x128 ![1] bcast_S128_S1x128_1 : (⟨S128, .f32⟩ : BufTy).Contents (Elt F) → (⟨S1x128, .f32⟩ : BufTy).Contents (Elt F)),
    StableHlo.unary main_v23 main_v24 (broadcastInDim S50000x128 ![0, 1] bcast_S1x128_S50000x128_0_1 : (⟨S1x128, .f32⟩ : BufTy).Contents (Elt F) → (⟨S50000x128, .f32⟩ : BufTy).Contents (Elt F)),
    StableHlo.binary main_v22 main_v24 main_v25 (addf : (⟨S50000x128, .f32⟩ : BufTy).Contents (Elt F) → (⟨S50000x128, .f32⟩ : BufTy).Contents (Elt F) → (⟨S50000x128, .f32⟩ : BufTy).Contents (Elt F)),
    StableHlo.binary main_arg0 main_v25 main_v26 (addf : (⟨S50000x128, .f32⟩ : BufTy).Contents (Elt F) → (⟨S50000x128, .f32⟩ : BufTy).Contents (Elt F) → (⟨S50000x128, .f32⟩ : BufTy).Contents (Elt F)),
    StableHlo.nullary main_cst_1 (constant S_ .f32 0x00000000#32),
    StableHlo.binary main_v26 main_cst_1 main_v27 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_2 (constant S_ .f32 0x47435000#32),
    StableHlo.unary main_cst_2 main_v28 (broadcastInDim S128 ![] bcast_S_S128 : (⟨S_, .f32⟩ : BufTy).Contents (Elt F) → (⟨S128, .f32⟩ : BufTy).Contents (Elt F)),
    StableHlo.binary main_v27 main_v28 main_v29 (Host.divf : (⟨S128, .f32⟩ : BufTy).Contents (Elt F) → (⟨S128, .f32⟩ : BufTy).Contents (Elt F) → (⟨S128, .f32⟩ : BufTy).Contents (Elt F)),
    StableHlo.nullary main_c_3 (constantI S_ 32 0#32),
    StableHlo.TRef.nullary main_call2.cst (constant S_ .f32 0x00000000#32),
    StableHlo.TRef.binary (.of main_v26) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v26) main_call2.v4 main_call2.v5 subf,
    StableHlo.TRef.binary main_call2.v5 main_call2.v5 main_call2.v6 mulf,
    StableHlo.TRef.unary (.of main_c_3) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v29 main_v31 (broadcastInDim S1x128 ![1] bcast_S128_S1x128_1 : (⟨S128, .f32⟩ : BufTy).Contents (Elt F) → (⟨S1x128, .f32⟩ : BufTy).Contents (Elt F)),
    StableHlo.unary main_v31 main_v32 (broadcastInDim S50000x128 ![0, 1] bcast_S1x128_S50000x128_0_1 : (⟨S1x128, .f32⟩ : BufTy).Contents (Elt F) → (⟨S50000x128, .f32⟩ : BufTy).Contents (Elt F)),
    StableHlo.binary main_v26 main_v32 main_v33 (subf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x3727C5AC#32),
    StableHlo.unary main_cst_4 main_v34 (broadcastInDim S128 ![] bcast_S_S128 : (⟨S_, .f32⟩ : BufTy).Contents (Elt F) → (⟨S128, .f32⟩ : BufTy).Contents (Elt F)),
    StableHlo.binary main_v30 main_v34 main_v35 (addf : (⟨S128, .f32⟩ : BufTy).Contents (Elt F) → (⟨S128, .f32⟩ : BufTy).Contents (Elt F) → (⟨S128, .f32⟩ : BufTy).Contents (Elt F)),
    StableHlo.unary main_v35 main_v36 (Host.rsqrt : (⟨S128, .f32⟩ : BufTy).Contents (Elt F) → (⟨S128, .f32⟩ : BufTy).Contents (Elt F)),
    StableHlo.unary main_v36 main_v37 (broadcastInDim S1x128 ![1] bcast_S128_S1x128_1 : (⟨S128, .f32⟩ : BufTy).Contents (Elt F) → (⟨S1x128, .f32⟩ : BufTy).Contents (Elt F)),
    StableHlo.unary main_v37 main_v38 (broadcastInDim S50000x128 ![0, 1] bcast_S1x128_S50000x128_0_1 : (⟨S1x128, .f32⟩ : BufTy).Contents (Elt F) → (⟨S50000x128, .f32⟩ : BufTy).Contents (Elt F)),
    StableHlo.binary main_v33 main_v38 main_v39 (mulf : (⟨S50000x128, .f32⟩ : BufTy).Contents (Elt F) → (⟨S50000x128, .f32⟩ : BufTy).Contents (Elt F) → (⟨S50000x128, .f32⟩ : BufTy).Contents (Elt F)),
    StableHlo.unary main_arg7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v41 main_v42 (mulf : (⟨S50000x128, .f32⟩ : BufTy).Contents (Elt F) → (⟨S50000x128, .f32⟩ : BufTy).Contents (Elt F) → (⟨S50000x128, .f32⟩ : BufTy).Contents (Elt F)),
    StableHlo.unary main_arg8 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S50000x128 ![0, 1] bcast_S1x128_S50000x128_0_1 : (⟨S1x128, .f32⟩ : BufTy).Contents (Elt F) → (⟨S50000x128, .f32⟩ : BufTy).Contents (Elt F)),
    StableHlo.binary main_v42 main_v44 main_v45 (addf : (⟨S50000x128, .f32⟩ : BufTy).Contents (Elt F) → (⟨S50000x128, .f32⟩ : BufTy).Contents (Elt F) → (⟨S50000x128, .f32⟩ : BufTy).Contents (Elt F)) ]

-- the functions' definitions unfold at their calls and sequencing computes: both sides are one chain of steps
set_option maxRecDepth 8192 in
set_option maxHeartbeats 2000000 in
/-- @main is that straight line: the functions' definitions unfolded at their calls and the records at their
    fields, both sides are one chain of steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., nullary_bufs_sub .., unary_bufs_sub .., binary_bufs_sub .., nullary_bufs_sub ..,
    unary_bufs_sub .., unary_bufs_sub .., ternary_bufs_sub .., binary_bufs_sub .., binary_bufs_sub .., unary_bufs_sub ..,
    unary_bufs_sub .., binary_bufs_sub .., nullary_bufs_sub .., unary_bufs_sub .., binary_bufs_sub .., binary_bufs_sub ..,
    unary_bufs_sub .., unary_bufs_sub .., binary_bufs_sub .., binary_bufs_sub .., nullary_bufs_sub .., binary_bufs_sub ..,
    nullary_bufs_sub .., unary_bufs_sub .., binary_bufs_sub .., nullary_bufs_sub .., nullary_bufs_sub .., binary_bufs_sub ..,
    unary_bufs_sub .., nullary_bufs_sub .., unary_bufs_sub .., binary_bufs_sub .., unary_bufs_sub .., binary_bufs_sub ..,
    binary_bufs_sub .., unary_bufs_sub .., nullary_bufs_sub .., binary_bufs_sub .., nullary_bufs_sub .., binary_bufs_sub ..,
    unary_bufs_sub .., binary_bufs_sub .., nullary_bufs_sub .., binary_bufs_sub .., nullary_bufs_sub .., unary_bufs_sub ..,
    unary_bufs_sub .., ternary_bufs_sub .., unary_bufs_sub .., unary_bufs_sub .., binary_bufs_sub .., nullary_bufs_sub ..,
    unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..⟩

/-- For any float values, from any memory with zero counters: every weakly fair execution of @main terminates,
    and every final state has each buffer at the operations' fold over the contents at launch. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The reference's value, as one term of its nine arguments

Everything below is read over the extended reals. The aggregate of the incoming messages (operations %0 to %15), the
node update (to %26), the column means (to %29), the column variances (the outlined variance, %30) and the normalised
result (%45) are each the operations' own composition, spelled as the program spells them. -/

/-- Operations %0 to %15: the source and target rows of the edge list, a negative source wrapped by the row count,
    the source rows gathered, the edge features added, rectified, and summed into the target rows from zero. -/
def aggr (X : FVec Ideal S50000x128 .f32) (EI : IVec S2x800000 32) (EA : FVec Ideal S800000x128 .f32) :
    FVec Ideal S50000x128 .f32 :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 (shapeCast S800000 (extractStridedSlice S1x800000 ![1, 0] EI slices_S2x800000_S1x800000_1_0) shapeCasts_S1x800000_S800000))
    (maximumf
      (addf
        (Host.gather gather_S50000x128_S800000x1_S800000x128_1_0_n_n_0_1_1128 X
          (broadcastInDim S800000x1 ![0] bcast_S800000_S800000x1_0
            (select
              (cmpi .slt (shapeCast S800000 (extractStridedSlice S1x800000 ![0, 0] EI slices_S2x800000_S1x800000_0_0) shapeCasts_S1x800000_S800000) (broadcastInDim S800000 ![] bcast_S_S800000 (constantI S_ 32 0#32)))
              (addi (shapeCast S800000 (extractStridedSlice S1x800000 ![0, 0] EI slices_S2x800000_S1x800000_0_0) shapeCasts_S1x800000_S800000) (broadcastInDim S800000 ![] bcast_S_S800000 (constantI S_ 32 50000#32)))
              (shapeCast S800000 (extractStridedSlice S1x800000 ![0, 0] EI slices_S2x800000_S1x800000_0_0) shapeCasts_S1x800000_S800000))))
        EA)
      (broadcastInDim S800000x128 ![] bcast_S_S800000x128 (constant (F := Ideal) S_ .f32 0x00000000#32)))

/-- Operations %16 to %26: the node update from the rows X and an aggregate A. -/
def hid (X A : FVec Ideal S50000x128 .f32) (W1 : FVec Ideal S128x128 .f32) (B1 : FVec Ideal S128 .f32)
    (W2 : FVec Ideal S128x128 .f32) (B2 : FVec Ideal S128 .f32) : FVec Ideal S50000x128 .f32 :=
  addf X
    (addf
      (Host.dotGeneral dot_S50000x128_S128x128_S50000x128_1_0_0_1_n_n none
        (maximumf
          (addf (Host.dotGeneral dot_S50000x128_S128x128_S50000x128_1_0_0_1_n_n none (addf X A) W1) (broadcastInDim S50000x128 ![0, 1] bcast_S1x128_S50000x128_0_1 (broadcastInDim S1x128 ![1] bcast_S128_S1x128_1 B1)))
          (broadcastInDim S50000x128 ![] bcast_S_S50000x128 (constant (F := Ideal) S_ .f32 0x00000000#32)))
        W2)
      (broadcastInDim S50000x128 ![0, 1] bcast_S1x128_S50000x128_0_1 (broadcastInDim S1x128 ![1] bcast_S128_S1x128_1 B2)))

/-- Operations %27 to %29: the column means of H. -/
def meanv (H : FVec Ideal S50000x128 .f32) : FVec Ideal S128 .f32 :=
  Host.divf (Host.reduceAdd H (constant (F := Ideal) S_ .f32 0x00000000#32) reducesTo_S50000x128_S128_d0 h_S_) (broadcastInDim S128 ![] bcast_S_S128 (constant (F := Ideal) S_ .f32 0x47435000#32))

/-- Operation %30, the outlined variance of the columns of H with zero degrees of freedom removed: the mean of the
    centred squares where the count is positive, the not-a-number word elsewhere. -/
def varv (H : FVec Ideal S50000x128 .f32) : FVec Ideal S128 .f32 :=
  select
    (broadcastInDim S128 ![] bcast_S_S128 (cmpf .ogt (subf (constant (F := Ideal) S_ .f32 0x47435000#32) (sitofp .f32 (constantI S_ 32 0#32) : FVec Ideal S_ .f32)) (constant (F := Ideal) S_ .f32 0x00000000#32)))
    (Host.divf
      (Host.reduceAdd (mulf (subf H (broadcastInDim S50000x128 ![0, 1] bcast_S1x128_S50000x128_0_1 (Host.divf (broadcastInDim S1x128 ![1] bcast_S128_S1x128_1 (Host.reduceAdd H (constant (F := Ideal) S_ .f32 0x00000000#32) reducesTo_S50000x128_S128_d0 h_S_)) (broadcastInDim S1x128 ![] bcast_S_S1x128 (constant (F := Ideal) S_ .f32 0x47435000#32))))) (subf H (broadcastInDim S50000x128 ![0, 1] bcast_S1x128_S50000x128_0_1 (Host.divf (broadcastInDim S1x128 ![1] bcast_S128_S1x128_1 (Host.reduceAdd H (constant (F := Ideal) S_ .f32 0x00000000#32) reducesTo_S50000x128_S128_d0 h_S_)) (broadcastInDim S1x128 ![] bcast_S_S1x128 (constant (F := Ideal) S_ .f32 0x47435000#32)))))) (constant (F := Ideal) S_ .f32 0x00000000#32) reducesTo_S50000x128_S128_d0 h_S_)
      (broadcastInDim S128 ![] bcast_S_S128 (subf (constant (F := Ideal) S_ .f32 0x47435000#32) (sitofp .f32 (constantI S_ 32 0#32) : FVec Ideal S_ .f32))))
    (broadcastInDim S128 ![] bcast_S_S128 (constant (F := Ideal) S_ .f32 0x7FC00000#32))

/-- Operations %31 to %45: H centred, scaled by the inverse root of the offset variance, then by the weight, and
    shifted. -/
def outOf (H : FVec Ideal S50000x128 .f32) (BW BB : FVec Ideal S128 .f32) : FVec Ideal S50000x128 .f32 :=
  addf
    (mulf
      (mulf (subf H (broadcastInDim S50000x128 ![0, 1] bcast_S1x128_S50000x128_0_1 (broadcastInDim S1x128 ![1] bcast_S128_S1x128_1 (meanv H))))
        (broadcastInDim S50000x128 ![0, 1] bcast_S1x128_S50000x128_0_1 (broadcastInDim S1x128 ![1] bcast_S128_S1x128_1 (Host.rsqrt (addf (varv H) (broadcastInDim S128 ![] bcast_S_S128 (constant (F := Ideal) S_ .f32 0x3727C5AC#32)))))))
      (broadcastInDim S50000x128 ![0, 1] bcast_S1x128_S50000x128_0_1 (broadcastInDim S1x128 ![1] bcast_S128_S1x128_1 BW)))
    (broadcastInDim S50000x128 ![0, 1] bcast_S1x128_S50000x128_0_1 (broadcastInDim S1x128 ![1] bcast_S128_S1x128_1 BB))

/-- All of @main: the result as one term of the nine arguments. -/
def out (X : FVec Ideal S50000x128 .f32) (EI : IVec S2x800000 32) (EA : FVec Ideal S800000x128 .f32)
    (W1 : FVec Ideal S128x128 .f32) (B1 : FVec Ideal S128 .f32) (W2 : FVec Ideal S128x128 .f32) (B2 : FVec Ideal S128 .f32)
    (BW BB : FVec Ideal S128 .f32) : FVec Ideal S50000x128 .f32 :=
  outOf (hid X (aggr X EI EA) W1 B1 W2 B2) BW BB

/-! ## The fold at the result and at the arguments -/

set_option maxRecDepth 8192 in
set_option maxHeartbeats 4000000 in
/-- The fold at the result buffer is `out` of the contents at the argument buffers: each operation's result at its
    own buffer is its function's value and at any other buffer what was there; what is left is the operations'
    composition, which is `out` by unfolding (the typed steps of the outlined functions transport along equations
    that are reflexivity at these buffers). -/
theorem out_eq (V : Valuation τ sig (Elt Ideal)) :
    after (ops (F := Ideal)) V (main_v45 : DevRef τ sig)
      = out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) (V (main_arg8 : DevRef τ sig)) := by
  after_results_simp
  rfl

set_option maxRecDepth 8192 in
set_option maxHeartbeats 4000000 in
theorem arg0_eq (V : Valuation τ sig (Elt Ideal)) :
    after (ops (F := Ideal)) V (main_arg0 : DevRef τ sig) = V (main_arg0 : DevRef τ sig) := by
  after_results_simp

set_option maxRecDepth 8192 in
set_option maxHeartbeats 4000000 in
theorem arg1_eq (V : Valuation τ sig (Elt Ideal)) :
    after (ops (F := Ideal)) V (main_arg1 : DevRef τ sig) = V (main_arg1 : DevRef τ sig) := by
  after_results_simp

set_option maxRecDepth 8192 in
set_option maxHeartbeats 4000000 in
theorem arg2_eq (V : Valuation τ sig (Elt Ideal)) :
    after (ops (F := Ideal)) V (main_arg2 : DevRef τ sig) = V (main_arg2 : DevRef τ sig) := by
  after_results_simp

set_option maxRecDepth 8192 in
set_option maxHeartbeats 4000000 in
theorem arg3_eq (V : Valuation τ sig (Elt Ideal)) :
    after (ops (F := Ideal)) V (main_arg3 : DevRef τ sig) = V (main_arg3 : DevRef τ sig) := by
  after_results_simp

set_option maxRecDepth 8192 in
set_option maxHeartbeats 4000000 in
theorem arg4_eq (V : Valuation τ sig (Elt Ideal)) :
    after (ops (F := Ideal)) V (main_arg4 : DevRef τ sig) = V (main_arg4 : DevRef τ sig) := by
  after_results_simp

set_option maxRecDepth 8192 in
set_option maxHeartbeats 4000000 in
theorem arg5_eq (V : Valuation τ sig (Elt Ideal)) :
    after (ops (F := Ideal)) V (main_arg5 : DevRef τ sig) = V (main_arg5 : DevRef τ sig) := by
  after_results_simp

set_option maxRecDepth 8192 in
set_option maxHeartbeats 4000000 in
theorem arg6_eq (V : Valuation τ sig (Elt Ideal)) :
    after (ops (F := Ideal)) V (main_arg6 : DevRef τ sig) = V (main_arg6 : DevRef τ sig) := by
  after_results_simp

set_option maxRecDepth 8192 in
set_option maxHeartbeats 4000000 in
theorem arg7_eq (V : Valuation τ sig (Elt Ideal)) :
    after (ops (F := Ideal)) V (main_arg7 : DevRef τ sig) = V (main_arg7 : DevRef τ sig) := by
  after_results_simp

set_option maxRecDepth 8192 in
set_option maxHeartbeats 4000000 in
theorem arg8_eq (V : Valuation τ sig (Elt Ideal)) :
    after (ops (F := Ideal)) V (main_arg8 : DevRef τ sig) = V (main_arg8 : DevRef τ sig) := by
  after_results_simp

/-! ## The run -/

/-- At the ideal values, from any memory with zero counters: every weakly fair execution of @main terminates with
    the result at `out` of the arguments' contents at launch and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v45)
        = out (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run (defs (F := Ideal)) _ _).mono (fun _ h c =>
      ⟨(h c main_v45).trans (out_eq (launchContents m c)),
        (h c main_arg0).trans (arg0_eq _), (h c main_arg1).trans (arg1_eq _), (h c main_arg2).trans (arg2_eq _),
        (h c main_arg3).trans (arg3_eq _), (h c main_arg4).trans (arg4_eq _), (h c main_arg5).trans (arg5_eq _),
        (h c main_arg6).trans (arg6_eq _), (h c main_arg7).trans (arg7_eq _), (h c main_arg8).trans (arg8_eq _)⟩)
    (run_main (F := Ideal) m ρ)

end Cert.ReferenceIdeal.RefValue

end
-- ==== Proof.LibDotNN.lean ====
/-
  A reusable lemma: a matrix product computed by the host's `dot_general`, read at an entry.

  A `dot_general` of an [M, K] operand by a [K, N] operand — contracting axis 1 of the left with axis 0 of the right, no
  batch axes — read over the extended reals at the output entry (p, q), is the inner product of row p of the left
  operand with column q of the right one, whatever the precision and the summation schedule:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx
import proofs.«182163_j7275674600087_2_alg».proof.Proof.LibMatmulNN

noncomputable section

namespace Cert.DotNN

open Idealize.ShloMosaic Idealize.ShloMosaic.ValueIdx

variable {M K N : Nat} {φ₁ φ₂ : FTy}

/-- A host matrix product at entry (p, q): the inner product of row p with column q. -/
theorem dotGeneral_apply (D : DotDims ⟨2, ![M, K]⟩ ⟨2, ![K, N]⟩ ⟨2, ![M, N]⟩) (hD : D = DotDims.plain M K N)
    (prec : Option ContractPrecision) (sched : HostSchedule) (lhs : FVec Ideal ⟨2, ![M, K]⟩ φ₁) (rhs : FVec Ideal ⟨2, ![K, N]⟩ φ₂)
    (p : Fin M) (q : Fin N) :
    FloatOps.dotGeneral D prec sched lhs rhs (ix2 p q) = ∑ k : Fin K, lhs (ix2 p k) * rhs (ix2 k q) := by
  subst hD
  rw [Ideal.dotGeneral_apply, ← Equiv.sum_comp (contrEquiv1 (DotDims.plain M K N) K rfl rfl).symm]
  refine Finset.sum_congr rfl fun k _ => ?_
  rw [Cert.MatmulNN.lhsIdx_plain, Cert.MatmulNN.rhsIdx_plain]

end Cert.DotNN

end
-- ==== Proof.RefValue.lean ====
/-
  The reference's value at an entry.

  The reference's result is, entry by entry, the centred normalisation of a column of the node update. Each layout
  operation is read at an index: a vector laid out as one row and repeated down the rows reads the vector at the column;
  a scalar repeated reads the scalar; a sum over the rows from zero is the finite sum down the column. The node update
  is then the layer's (two matrix products read as inner products, the bias rows, the rectifier as a maximum with
  zero); the mean is the column sum over the row count; the outlined variance divides the sum of the centred squares by
  the row count less zero degrees of freedom, which is the row count, and its selection takes that quotient because
  the count is positive, so the not-a-number word on the other branch is never read.
-/
import proofs.«182163_j7275674600087_2_alg».proof.Proof.RefRun
import proofs.«182163_j7275674600087_2_alg».proof.Proof.Spec
import proofs.«182163_j7275674600087_2_alg».proof.Proof.LibDotNN
import Idealize.ShloMosaic.Lib.ValueIdx
import Idealize.ShloMosaic.Lib.IdealHost
import Idealize.ShloMosaic.Lib.KernelVsHost
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.ValueIdx Idealize.SL.Sem

/-! ## Reading the layout operations at an index -/

/-- A vector laid out as one row, read at (0, q), is the vector at q. -/
theorem row1_apply {α : Type} (v : S128.Idx → α) (q : Fin 128) :
    broadcastInDim S1x128 ![1] bcast_S128_S1x128_1 v (ix2 (0 : Fin 1) q) = v (ix1 q) := by
  refine broadcastInDim_apply ![1] bcast_S128_S1x128_1 v (ix2 (0 : Fin 1) q) (ix1 q) ?_
  intro a
  fin_cases a
  show q.val = if (128 : ℕ) = 1 then 0 else q.val
  rw [if_neg (by decide)]

/-- A vector laid out as one row and repeated down the rows, read at (p, q), is the vector at q. -/
theorem row_apply {α : Type} (v : S128.Idx → α) (p : Fin 50000) (q : Fin 128) :
    broadcastInDim S50000x128 ![0, 1] bcast_S1x128_S50000x128_0_1 (broadcastInDim S1x128 ![1] bcast_S128_S1x128_1 v) (ix2 p q)
      = v (ix1 q) := by
  rw [broadcastInDim_oneRow_apply]
  exact row1_apply v q

/-- A scalar repeated along a vector reads the scalar everywhere. -/
theorem splat_apply {α : Type} (x : S_.Idx → α) (j : S128.Idx) : broadcastInDim S128 ![] bcast_S_S128 x j = x ix0 :=
  broadcastInDim_scalar_apply _ x j

/-- A column sum from zero: the host's sum over the rows at column q. -/
theorem colSum_apply (H : FVec Ideal S50000x128 .f32) (q : Fin 128) :
    Host.reduceAdd H (constant (F := Ideal) S_ .f32 0x00000000#32) reducesTo_S50000x128_S128_d0 h_S_ (ix1 q)
      = ∑ p : Fin 50000, H (ix2 p q) := by
  have h : S50000x128.Reduces [0] S128 :=
    ⟨reducesTo_S50000x128_S128_d0.1, Nat.one_pos, reducesTo_S50000x128_S128_d0.2⟩
  show Ideal.hostReduceAdd reducesTo_S50000x128_S128_d0 H (Ideal.ofBits .f32 0x00000000#32) (ix1 q) = _
  rw [Ideal.hostReduceAdd_single reducesTo_S50000x128_S128_d0 h, Ideal.ofBits_zero_f32, zero_add]
  refine Finset.sum_congr rfl fun k _ => congrArg H (funext fun a => Fin.ext ?_)
  match a with
  | ⟨0, _⟩ => rfl
  | ⟨1, _⟩ => rfl

/-! ## The node update, the means, the variances, the result -/

/-- The node update read at (p, q) is the layer's node update. -/
theorem hid_apply (X A : FVec Ideal S50000x128 .f32) (W1 : FVec Ideal S128x128 .f32) (B1 : FVec Ideal S128 .f32)
    (W2 : FVec Ideal S128x128 .f32) (B2 : FVec Ideal S128 .f32) (p : Fin 50000) (q : Fin 128) :
    hid X A W1 B1 W2 B2 (ix2 p q) = Cert.GinBn.node X A W1 B1 W2 B2 p q := by
  unfold hid Cert.GinBn.node
  rw [addf_apply, addf_apply, row_apply]
  refine congrArg (X (ix2 p q) + ·) (congrArg (· + B2 (ix1 q)) ?_)
  refine (Cert.DotNN.dotGeneral_apply dot_S50000x128_S128x128_S50000x128_1_0_0_1_n_n rfl none .single _ W2 p q).trans ?_
  refine Finset.sum_congr rfl fun k _ => congrArg (· * W2 (ix2 k q)) ?_
  rw [maximumf_apply, addf_apply, row_apply]
  show max (_ + B1 (ix1 k)) (Ideal.ofBits .f32 0x00000000#32) = _
  rw [Ideal.ofBits_zero_f32]
  refine congrArg (fun t => max (t + B1 (ix1 k)) 0) ?_
  exact Cert.DotNN.dotGeneral_apply dot_S50000x128_S128x128_S50000x128_1_0_0_1_n_n rfl none .single (addf X A) W1 p k

/-- The column mean at q. -/
theorem meanv_apply (H : FVec Ideal S50000x128 .f32) (q : Fin 128) :
    meanv H (ix1 q) = Ideal.div (∑ p : Fin 50000, H (ix2 p q)) Cert.GinBn.nLit := by
  unfold meanv
  rw [hostDivf_apply, colSum_apply, splat_apply]
  rfl

/-- The count the variance divides by: the row count less zero degrees of freedom, the row count. -/
theorem count_eq :
    (subf (constant (F := Ideal) S_ .f32 0x47435000#32) (sitofp .f32 (constantI S_ 32 0#32) : FVec Ideal S_ .f32)) ix0
      = Cert.GinBn.nLit := by
  show Cert.GinBn.nLit - (Scalar.sitofp .f32 (0#32) : Ideal .f32) = Cert.GinBn.nLit
  rw [sitofp_zero, sub_zero]

/-- The row count is positive, so the comparison the variance selects by is true. -/
theorem count_pos : Ideal.cmp .ogt Cert.GinBn.nLit 0 = 1#1 := by
  have h : (0 : EReal) < Cert.GinBn.nLit := by
    rw [Cert.GinBn.nLit_eq]; exact_mod_cast (by norm_num : (0 : ℝ) < 50000)
  unfold Ideal.cmp
  simp only [h, decide_true]
  rfl

/-- The column variance at q: the mean of the centred squares. -/
theorem varv_apply (H : FVec Ideal S50000x128 .f32) (q : Fin 128) :
    varv H (ix1 q)
      = Ideal.div (∑ p : Fin 50000, (H (ix2 p q) - Ideal.div (∑ p' : Fin 50000, H (ix2 p' q)) Cert.GinBn.nLit)
          * (H (ix2 p q) - Ideal.div (∑ p' : Fin 50000, H (ix2 p' q)) Cert.GinBn.nLit)) Cert.GinBn.nLit := by
  unfold varv
  rw [select_apply, splat_apply, cmpf_apply, count_eq]
  show Scalar.select (Ideal.cmp .ogt Cert.GinBn.nLit (Ideal.ofBits .f32 0x00000000#32)) _ _ = _
  rw [Ideal.ofBits_zero_f32, count_pos, select_one, hostDivf_apply, colSum_apply, splat_apply, count_eq]
  refine congrArg (Ideal.div · Cert.GinBn.nLit) (Finset.sum_congr rfl fun p _ => ?_)
  rw [mulf_apply, subf_apply, broadcastInDim_oneRow_apply, hostDivf_apply]
  have e2 : broadcastInDim S1x128 ![] bcast_S_S1x128 (constant (F := Ideal) S_ .f32 0x47435000#32) (ix2 (0 : Fin 1) q)
      = Cert.GinBn.nLit := rfl
  rw [row1_apply, colSum_apply, e2]

/-- The normalised result over any array H, read at (p, q): the centred normalisation of column q of H. -/
theorem outOf_apply (H : FVec Ideal S50000x128 .f32) (BW BB : FVec Ideal S128 .f32) (p : Fin 50000) (q : Fin 128) :
    outOf H BW BB (ix2 p q) = Cert.GinBn.bnCentred (fun p' => H (ix2 p' q)) (BW (ix1 q)) (BB (ix1 q)) p := by
  unfold outOf Cert.GinBn.bnCentred
  rw [addf_apply, mulf_apply, mulf_apply, subf_apply, row_apply, row_apply, row_apply, row_apply, meanv_apply]
  show (_ - _) * Ideal.rsqrt (addf (varv H) _ (ix1 q)) * _ + _ = _
  rw [addf_apply, varv_apply, splat_apply]
  rfl

/-- THE VALUE: the reference's result at (p, q) is the centred normalisation of column q of the node update. -/
theorem out_apply (X : FVec Ideal S50000x128 .f32) (EI : IVec S2x800000 32) (EA : FVec Ideal S800000x128 .f32)
    (W1 : FVec Ideal S128x128 .f32) (B1 : FVec Ideal S128 .f32) (W2 : FVec Ideal S128x128 .f32) (B2 : FVec Ideal S128 .f32)
    (BW BB : FVec Ideal S128 .f32) (p : Fin 50000) (q : Fin 128) :
    out X EI EA W1 B1 W2 B2 BW BB (ix2 p q)
      = Cert.GinBn.bnCentred (fun p' => Cert.GinBn.node X (aggr X EI EA) W1 B1 W2 B2 p' q) (BW (ix1 q)) (BB (ix1 q)) p := by
  unfold out
  rw [outOf_apply]
  exact congrArg (fun f => Cert.GinBn.bnCentred f (BW (ix1 q)) (BB (ix1 q)) p)
    (funext fun p' => hid_apply X (aggr X EI EA) W1 B1 W2 B2 p' q)

end Cert.ReferenceIdeal.RefValue

end
-- ==== Proof.lean ====
/-
  The certificate: a graph layer with batch normalisation, kernel against reference, over the extended reals.

  Both programs compute, from node rows x, an edge list and edge attributes, the aggregate a of rectified messages,
  the node update h = x + W2ᵀ·relu(W1ᵀ·(x + a) + b1) + b2, and then normalise every column of h over the batch.
  They differ only in how they normalise. The kernel takes per-block sums of h and h², forms the mean and the
  one-pass variance E[h²] − mean², folds weight, inverse root, bias and mean into a scale and a shift, and returns
  h · scale + shift. The reference centres h, takes the mean of the squared deviations, and returns
  (h − mean) · rsqrt(var + ε) · w + b. On a column of real numbers the two variances are one number (the variance
  identity), it is not negative, so the inverse root is a real number, and the two affine forms agree by
  distributivity — a law that fails at the infinities, which is where the precondition is used: every float input is
  finite, so the aggregate (a finite sum of maxima of sums of inputs) and the node update are real.
  The frames of the two kernel programs are the generated ones; the reference's frame is its run with the result
  dropped; the idealization rewrote nothing, so there is nothing to preserve.
-/
import proofs.«182163_j7275674600087_2_alg».proof.Defs
import proofs.«182163_j7275674600087_2_alg».proof.Proof.Gen.Kernel
import proofs.«182163_j7275674600087_2_alg».proof.Proof.Gen.Kernel.Frame
import proofs.«182163_j7275674600087_2_alg».proof.Proof.Gen.KernelIdeal
import proofs.«182163_j7275674600087_2_alg».proof.Proof.Gen.KernelIdeal.Frame
import proofs.«182163_j7275674600087_2_alg».proof.Proof.Gen.ReferenceIdeal
import proofs.«182163_j7275674600087_2_alg».proof.Proof.Gen.Pre_finite_inputs
import proofs.«182163_j7275674600087_2_alg».proof.Proof.Spec
import proofs.«182163_j7275674600087_2_alg».proof.Proof.Finite
import proofs.«182163_j7275674600087_2_alg».proof.Proof.KernelRun
import proofs.«182163_j7275674600087_2_alg».proof.Proof.KernelValue
import proofs.«182163_j7275674600087_2_alg».proof.Proof.AggrReal
import proofs.«182163_j7275674600087_2_alg».proof.Proof.RefValue
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- The two programs spell the aggregate with the same operations. -/
theorem aggr_same (X : FVec Ideal Cert.KernelIdeal.S50000x128 .f32) (EI : IVec Cert.KernelIdeal.S2x800000 32)
    (EA : FVec Ideal Cert.KernelIdeal.S800000x128 .f32) :
    Cert.KernelIdeal.Boundary.aggrK X EI EA = Cert.ReferenceIdeal.RefValue.aggr X EI EA := rfl

/-- Both runs end, with one result: at every entry the folded and the centred normalisation of the same real column. -/
theorem algebraic : Cert.algebraic_KernelIdeal_ReferenceIdeal := by
  intro m ρ m' ρ' hpre hagree
  refine ⟨fun c => Cert.KernelIdeal.Gen.W6 m ρ c (Proc.devRef .tc Cert.KernelIdeal.main_v33),
    Cert.KernelIdeal.RunValue.run_named (F := Ideal) m ρ, ?_⟩
  refine (θ_run Cert.ReferenceIdeal.defs _ _).mono (fun r h c => ⟨(h c).1.trans ?_, (h c).2⟩)
    (Cert.ReferenceIdeal.RefValue.run m' ρ')
  obtain ⟨h0, h1, h2, h3, h4, h5, h6, h7, h8⟩ := hagree c
  rw [h0, h1, h2, h3, h4, h5, h6, h7, h8]
  obtain ⟨r0, r2, r3, r4, r5, r6, r7, r8⟩ := Cert.GinBn.Finite.isR_of_pre _ _ _ _ _ _ _ _ _ (hpre c)
  funext i
  obtain ⟨p, q, rfl⟩ : ∃ (p : Fin 50000) (q : Fin 128), i = ix2 p q :=
    ⟨⟨(i 0).val, idx2_lt0 i⟩, ⟨(i 1).val, idx2_lt1 i⟩, eq_ix2 i⟩
  rw [Cert.ReferenceIdeal.RefValue.out_apply, ← aggr_same]
  refine Eq.trans ?_ (Cert.KernelIdeal.Value.result_apply m ρ c p q).symm
  unfold Cert.KernelIdeal.Value.nodeOf
  exact (Cert.GinBn.bnFolded_eq_bnCentred _ _ _ (fun p' => Cert.GinBn.node_isR r0
    (Cert.KernelIdeal.Boundary.aggrK_isR _ _ _ r0 r2) r3 r4 r5 r6 p' q) (r7 _) (r8 _) p).symm

theorem claim : Cert.Claim := ⟨Cert.Kernel.Gen.facts, Cert.KernelIdeal.Gen.facts, Cert.ReferenceIdeal.Gen.facts,
  Cert.Pre_finite_inputs.Gen.facts, frame_kernel, frame_kernelIdeal, frame_referenceIdeal, preserves, algebraic⟩

end Cert.Proof

end
